-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S256 .f32) (main_arg6 : FVec F S256x10 .f32) (main_arg7 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x10 .f32 := Host.absf main_arg6
  let main_cst_8 : FVec F S_ .f32 := constant S_ .f32 0x7F800000#32
  let main_v25 : FVec F S256x10 .f32 := broadcastInDim S256x10 ![] bcast_S_S256x10 main_cst_8
  let main_v26 : IVec S256x10 1 := cmpf .olt main_v24 main_v25
  let main_c_9 : IVec S_ 1 := constantI S_ 1 1#1
  let main_v27 : IVec S_ 1 := (fun x v => Host.reduce IntOp.andi x v reducesTo_S256x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S256x256 .f32) (main_arg5 : FVec F S256 .f32) (main_arg6 : FVec F S256x10 .f32) (main_arg7 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S50000x10 : Shape := ⟨2, ![50000, 10]⟩
abbrev S2000x10 : Shape := ⟨2, ![2000, 10]⟩
abbrev S850000x10 : Shape := ⟨2, ![850000, 10]⟩
abbrev S1x10 : Shape := ⟨2, ![1, 10]⟩
abbrev S2000 : Shape := ⟨1, ![2000]⟩
abbrev S2000x1 : Shape := ⟨2, ![2000, 1]⟩

abbrev nBuf : Space → Nat
  | .hbm => 105
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x10, .f32⟩
  | .hbm, ⟨7, _⟩ => ⟨S10, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S850000x1, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S850000x1, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x256, .f32⟩
  | .hbm, ⟨78, _⟩ => ⟨S850000x256, .f32⟩
  | .hbm, ⟨79, _⟩ => ⟨S850000x256, .f32⟩
  | .hbm, ⟨80, _⟩ => ⟨S_, .f32⟩
  | .hbm, ⟨81, _⟩ => ⟨S50000x256, .f32⟩
  | .hbm, ⟨82, _⟩ => ⟨S850000x1, .i32⟩
  | .hbm, ⟨83, _⟩ => ⟨S50000x256, .f32⟩
  | .hbm, ⟨84, _⟩ => ⟨S1x256, .f32⟩
  | .hbm, ⟨85, _⟩ => ⟨S50000x256, .f32⟩
  | .hbm, ⟨86, _⟩ => ⟨S50000x10, .f32⟩
  | .hbm, ⟨87, _⟩ => ⟨S850000x1, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000x10, .f32⟩
  | .hbm, ⟨97, _⟩ => ⟨S850000x10, .f32⟩
  | .hbm, ⟨98, _⟩ => ⟨S850000x10, .f32⟩
  | .hbm, ⟨99, _⟩ => ⟨S_, .f32⟩
  | .hbm, ⟨100, _⟩ => ⟨S50000x10, .f32⟩
  | .hbm, ⟨101, _⟩ => ⟨S850000x1, .i32⟩
  | .hbm, ⟨102, _⟩ => ⟨S50000x10, .f32⟩
  | .hbm, ⟨103, _⟩ => ⟨S1x10, .f32⟩
  | .hbm, ⟨104, _⟩ => ⟨S50000x10, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x10, .f32⟩
  | .local _ .vmem, ⟨23, _⟩ => ⟨S2000x10, .f32⟩
  | .local _ .vmem, ⟨24, _⟩ => ⟨S2000x10, .f32⟩
  | .local _ .vmem, ⟨25, _⟩ => ⟨S2000x10, .f32⟩
  | .local _ .vmem, ⟨26, _⟩ => ⟨S2000x10, .f32⟩
  | .local _ .vmem, ⟨27, _⟩ => ⟨S1x10, .f32⟩
  | .local _ .vmem, ⟨28, _⟩ => ⟨S2000x10, .f32⟩
  | .local _ .vmem, ⟨29, _⟩ => ⟨S2000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x10 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x10 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x10 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x10_S256x10_0_0 : ∀ a, (![0, 0] : Fin 2 → Nat) a + S256x10.size a ≤ S256x10.size a
  h_S256x10 : 0 < S256x10.numel
  inb_S2000x10_S2000x10_0_0 : ∀ a, (![0, 0] : Fin 2 → Nat) a + S2000x10.size a ≤ S2000x10.size a
  h_S2000x10 : 0 < S2000x10.numel
  bcast_S850000x1_S850000x10_0_1 : S850000x1.BroadcastsInDim S850000x10 (![0, 1] : Fin 2 → Fin S850000x10.rank)
  bcast_S_S50000x10 : S_.BroadcastsInDim S50000x10 (![] : Fin 0 → Fin S50000x10.rank)
  shapeCasts_S10_S1x10 : S10.ShapeCasts S1x10
  shapeCasts_S2000x10_S2000x10 : S2000x10.ShapeCasts S2000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  reduces_S2000x10_S2000 : S2000x10.Reduces [1] S2000
  shapeCasts_S2000_S2000x1 : S2000.ShapeCasts S2000x1
  broadcasts_S2000x1_S2000x10 : S2000x1.Broadcasts S2000x10
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x256_S256x10_S2000x10_1_0_0_1_n_n_wf : DotDims.WF S2000x256 S256x10 S2000x10 [1] [0] [0] [1] [] []
  gather_S50000x10_S850000x1_S850000x10_1_0_n_n_0_1_110_wf : GatherDims.WF S50000x10 S850000x1 S850000x10 [1] [0] [] [0] [] 1 ![1, 10]
  scatter_S50000x10_S850000x1_S850000x10_1_0_0_1_wf : ScatterDims.WF S50000x10 S850000x1 S850000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x10.size a ≤ S256x10.size a
  hwx4_1 : ∀ i : grid4.Coords, EltTy.bits .f32 = 32 ∨ (Rect.block (s := S256x10) S256x10.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x10.size a ≤ S50000x10.size a
  hwx4_2 : ∀ i : grid4.Coords, EltTy.bits .f32 = 32 ∨ (Rect.block (s := S50000x10) S2000x10.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x10.size a ≤ S50000x10.size a
  hwx5_0 : ∀ i : grid5.Coords, EltTy.bits .f32 = 32 ∨ (Rect.block (s := S50000x10) S2000x10.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x10.size a ≤ S1x10.size a
  hwx5_1 : ∀ i : grid5.Coords, EltTy.bits .f32 = 32 ∨ (Rect.block (s := S1x10) S1x10.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x10.size a ≤ S50000x10.size a
  hwx5_2 : ∀ i : grid5.Coords, EltTy.bits .f32 = 32 ∨ (Rect.block (s := S50000x10) S2000x10.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x10_S2000x10_1_0_0_1_n_n : DotDims S2000x256 S256x10 S2000x10 where
  lhsContracting := [1]
  rhsContracting := [0]
  lhsNonContracting := [0]
  rhsNonContracting := [1]
  lhsBatch := []
  rhsBatch := []
  wf := dot_S2000x256_S256x10_S2000x10_1_0_0_1_n_n_wf
def gather_S50000x10_S850000x1_S850000x10_1_0_n_n_0_1_110 : GatherDims S50000x10 S850000x1 S850000x10 where
  offsetDims := [1]
  collapsedSliceDims := [0]
  operandBatchingDims := []
  startIndicesBatchingDims := []
  startIndexMap := [0]
  indexVectorDim := 1
  sliceSizes := ![1, 10]
  wf := gather_S50000x10_S850000x1_S850000x10_1_0_n_n_0_1_110_wf
def scatter_S50000x10_S850000x1_S850000x10_1_0_0_1 : ScatterDims S50000x10 S850000x1 S850000x10 where
  updateWindowDims := [1]
  insertedWindowDims := [0]
  scatterDimsToOperandDims := [0]
  indexVectorDim := 1
  wf := scatter_S50000x10_S850000x1_S850000x10_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x10.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S2000x10.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S2000x10.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x10 : Shape := ⟨2, ![50000, 10]⟩
abbrev S850000x10 : Shape := ⟨2, ![850000, 10]⟩
abbrev S1x10 : Shape := ⟨2, ![1, 10]⟩
abbrev S50000x1 : Shape := ⟨2, ![50000, 1]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x256, .f32⟩
  | 5 => ⟨S256, .f32⟩
  | 6 => ⟨S256x10, .f32⟩
  | 7 => ⟨S10, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x256, .f32⟩
  | 49 => ⟨S850000x1, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x256, .f32⟩
  | 60 => ⟨S850000x256, .f32⟩
  | 61 => ⟨S_, .f32⟩
  | 62 => ⟨S50000x256, .f32⟩
  | 63 => ⟨S850000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x256, .f32⟩
  | 72 => ⟨S850000x1, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x256, .f32⟩
  | 82 => ⟨S850000x256, .f32⟩
  | 83 => ⟨S850000x256, .f32⟩
  | 84 => ⟨S_, .f32⟩
  | 85 => ⟨S50000x256, .f32⟩
  | 86 => ⟨S850000x1, .i32⟩
  | 87 => ⟨S50000x256, .f32⟩
  | 88 => ⟨S1x256, .f32⟩
  | 89 => ⟨S50000x256, .f32⟩
  | 90 => ⟨S50000x256, .f32⟩
  | 91 => ⟨S_, .f32⟩
  | 92 => ⟨S50000x256, .f32⟩
  | 93 => ⟨S50000x256, .f32⟩
  | 94 => ⟨S50000x10, .f32⟩
  | 95 => ⟨S850000x1, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x10, .f32⟩
  | 105 => ⟨S850000x10, .f32⟩
  | 106 => ⟨S850000x10, .f32⟩
  | 107 => ⟨S_, .f32⟩
  | 108 => ⟨S50000x10, .f32⟩
  | 109 => ⟨S850000x1, .i32⟩
  | 110 => ⟨S50000x10, .f32⟩
  | 111 => ⟨S1x10, .f32⟩
  | 112 => ⟨S50000x10, .f32⟩
  | 113 => ⟨S50000x10, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x10, .f32⟩
  | 121 => ⟨S50000x10, .f32⟩
  | 122 => ⟨S50000x10, .f32⟩
  | 123 => ⟨S_, .f32⟩
  | 124 => ⟨S50000, .f32⟩
  | 125 => ⟨S50000x1, .f32⟩
  | 126 => ⟨S50000x1, .f32⟩
  | 127 => ⟨S50000x10, .f32⟩
  | _ => ⟨S50000x128, .f32⟩

abbrev hbmTy0_1 (i : Nat) : BufTy := match i % 128 with
  | 0 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v83 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x10_0_1 : S850000x1.BroadcastsInDim S850000x10 (![0, 1] : Fin 2 → Fin S850000x10.rank)
  bcast_S_S50000x10 : S_.BroadcastsInDim S50000x10 (![] : Fin 0 → Fin S50000x10.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x10_S50000x10_1_0_0_1_n_n_wf : DotDims.WF S50000x256 S256x10 S50000x10 [1] [0] [0] [1] [] []
  gather_S50000x10_S850000x1_S850000x10_1_0_n_n_0_1_110_wf : GatherDims.WF S50000x10 S850000x1 S850000x10 [1] [0] [] [0] [] 1 ![1, 10]
  scatter_S50000x10_S850000x1_S850000x10_1_0_0_1_wf : ScatterDims.WF S50000x10 S850000x1 S850000x10 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x10_S50000x10_1_0_0_1_n_n : DotDims S50000x256 S256x10 S50000x10 where
  lhsContracting := [1]
  rhsContracting := [0]
  lhsNonContracting := [0]
  rhsNonContracting := [1]
  lhsBatch := []
  rhsBatch := []
  wf := dot_S50000x256_S256x10_S50000x10_1_0_0_1_n_n_wf
def gather_S50000x10_S850000x1_S850000x10_1_0_n_n_0_1_110 : GatherDims S50000x10 S850000x1 S850000x10 where
  offsetDims := [1]
  collapsedSliceDims := [0]
  operandBatchingDims := []
  startIndicesBatchingDims := []
  startIndexMap := [0]
  indexVectorDim := 1
  sliceSizes := ![1, 10]
  wf := gather_S50000x10_S850000x1_S850000x10_1_0_n_n_0_1_110_wf
def scatter_S50000x10_S850000x1_S850000x10_1_0_0_1 : ScatterDims S50000x10 S850000x1 S850000x10 where
  updateWindowDims := [1]
  insertedWindowDims := [0]
  scatterDimsToOperandDims := [0]
  indexVectorDim := 1
  wf := scatter_S50000x10_S850000x1_S850000x10_1_0_0_1_wf

class Facts : Prop extends Facts₀ where

variable [Facts]
-- ==== Proof.KernelRun.lean ====
/-
  The kernel program's run, with its result named.

  The program is twelve segments: stretches of host operations and six tiled regions. Every execution ends with each
  buffer at the last boundary's contents `W12` — a fold through the segments: a host stretch folds its operations'
  results, a region replaces its output array by what its tiles wrote back. The frame keeps of this only that the
  arguments end as launched; here the same run is read also at the result buffer, which ends at `W12` there.
-/
import proofs.«176214_j15865609191627_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the program terminates, nothing faulting, with the result buffer at the last boundary's
    contents and the arguments as launched. -/
theorem result_at_last_boundary : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Run

end
-- ==== Proof.LibAfterAppend.lean ====
/-
  Folding a list of host operations over a valuation, one stretch after another.

  `StableHlo.after ops W` folds each operation's result into the valuation `W` in order; folding a concatenation
  is folding the first stretch and then the second over what it leaves. This lets a long program be read in
  stretches, each against an arbitrary starting valuation.
-/
import Idealize.ShloMosaic.Lib.StableHlo.Run

namespace Cert.LibAfterAppend

open Idealize.ShloMosaic Idealize.ShloMosaic.StableHlo

/-- Folding two stretches of operations one after the other is folding their concatenation. -/
theorem after_concat {τ : Topo} {sig : RefSig} {Val : EltTy → Type} (l₁ l₂ : List (HloOp τ sig Val)) (W : Valuation τ sig Val) :
    after (l₁ ++ l₂) W = after l₂ (after l₁ W) := by
  induction l₁ generalizing W with
  | nil => rfl
  | cons op l ih => exact ih _

/-- A list cut at `k`: folding it is folding the first `k` operations, then the rest. -/
theorem after_take_drop {τ : Topo} {sig : RefSig} {Val : EltTy → Type} (k : Nat) (l : List (HloOp τ sig Val)) (W : Valuation τ sig Val) :
    after l W = after (l.drop k) (after (l.take k) W) := by
  rw [← after_concat, List.take_append_drop]

end Cert.LibAfterAppend
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«176214_j15865609191627_1_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.LibSegmentRows.lean ====
/-
  Taking rows of a matrix by an index column, and summing rows into segments, read at coordinates.

  `x[src]` for `x : [N, C]` and an index column `src : [E, 1]` reads, at `(e, c)`, the entry `(row e, c)`
  of `x`, where `row e` is the index `src[e, 0]` read as a signed integer and clamped into `[0, N - 1]`.
  The accumulating scatter of the rows of `u : [E, C]` into `[N, C]` along an index column `dst : [E, 1]`
  adds to entry `(r, c)` the sum of `u (e, c)` over the edges `e` whose index `dst[e, 0]`, read as a signed
  integer and NOT clamped, is `r`; an edge whose index is outside `[0, N)` contributes nowhere. The same
  for a vector `[E]` scattered into `[N]`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SegmentRows

/-- The dimension numbers of `x[src]` for `x : [N, C]` and `src : [E, 1]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index read signed and clamped into `[0, N - 1]`. -/
def takeRow {N E w : Nat} (hN : 0 < N) (idx : IVec ⟨2, ![E, 1]⟩ w) (e : Fin E) : Fin N :=
  ⟨min (idx (ix2 e 0)).toInt.toNat (N - 1), by omega⟩

/-- THE ROW GATHER READ AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (takeRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    have h1 : (1 : Fin 2) ∉ (rowGatherDims N E C wf).startIndexMap := by
      show (1 : Fin 2) ∉ ([0] : List (Fin 2)); decide
    have hk : (1 : Fin 2) ∈ (rowGatherDims N E C wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The dimension numbers of the row scatter `[E, C]` into `[N, C]` along `dst : [E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges whose index, read signed, is row `r`. -/
def segment {N E w : Nat} (idx : IVec ⟨2, ![E, 1]⟩ w) (r : Fin N) : Finset (Fin E) :=
  Finset.univ.filter fun e => (idx (ix2 e 0)).toInt = (r.val : Int)

/-- On axis 0 the window of update `(e, c')` starts at the signed index of edge `e`. -/
theorem rows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 it starts at `0`: the index names axis 0 only. -/
theorem rows_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (by show (1 : Fin 2) ∉ ([0] : List (Fin 2)); decide)]

/-- Axis 0 is inserted: no window coordinate there. -/
theorem rows_window0 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 0 = 0 := by
  unfold ScatterDims.window
  rw [dif_neg (by show (0 : Fin 2) ∉ (List.finRange 2).filter (· ∉ ([0] : List (Fin 2))); decide)]

/-- On axis 1 the window coordinate is the update's column. -/
theorem rows_window1 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 1 = c'.val := by
  unfold ScatterDims.window
  rw [dif_pos (by show (1 : Fin 2) ∈ (List.finRange 2).filter (· ∉ ([0] : List (Fin 2))); decide)]
  rfl

/-- Update `(e, c')` lands on `(r, c)` exactly when it is in column `c` and edge `e`'s signed index is `r`. -/
theorem rows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatterDims N E C wf).resultIdx? (ix2 e c') idx = some (ix2 r c)
      ↔ c' = c ∧ (idx (ix2 e 0)).toInt = (r.val : Int) := by
  have hs0 := rows_start0 wf idx e c'
  have hs1 := rows_start1 wf idx e c'
  have hw0 := rows_window0 wf e c'
  have hw1 := rows_window1 wf e c'
  have hr : r.val < N := r.isLt
  have hc : c.val < C := c.isLt
  have hc' : c'.val < C := c'.isLt
  unfold ScatterDims.resultIdx?
  split
  · rename_i h
    rw [Option.some.injEq]
    have h0 := h 0
    have h1 := h 1
    constructor
    · intro hf
      have e0 : ((rowScatterDims N E C wf).start (ix2 e c') idx 0
          + ((rowScatterDims N E C wf).window (ix2 e c') 0 : Int)).toNat = r.val :=
        congrArg Fin.val (congrFun hf 0)
      have e1 : ((rowScatterDims N E C wf).start (ix2 e c') idx 1
          + ((rowScatterDims N E C wf).window (ix2 e c') 1 : Int)).toNat = c.val :=
        congrArg Fin.val (congrFun hf 1)
      rw [hs0, hw0] at h0 e0
      rw [hs1, hw1] at e1
      exact ⟨Fin.ext (by omega), by omega⟩
    · rintro ⟨hcc, ht⟩
      funext a; refine Fin.ext ?_
      match a with
      | ⟨0, _⟩ =>
        show ((rowScatterDims N E C wf).start (ix2 e c') idx 0
          + ((rowScatterDims N E C wf).window (ix2 e c') 0 : Int)).toNat = r.val
        rw [hs0, hw0]; omega
      | ⟨1, _⟩ =>
        show ((rowScatterDims N E C wf).start (ix2 e c') idx 1
          + ((rowScatterDims N E C wf).window (ix2 e c') 1 : Int)).toNat = c.val
        rw [hs1, hw1, hcc]; omega
  · rename_i h
    constructor
    · intro hf; exact absurd hf (by simp)
    · rintro ⟨hcc, ht⟩
      exfalso; apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

/-- THE ACCUMULATING ROW SCATTER READ AT `(r, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatterDims N E C wf) x idx upd (ix2 r c)
      = x (ix2 r c) + ∑ e ∈ segment idx r, upd (ix2 e c) := by
  unfold Ideal.hostScatterAdd
  congr 1
  rw [Finset.sum_filter, sum_idx2]
  unfold segment
  rw [Finset.sum_filter]
  refine Finset.sum_congr rfl fun e _ => ?_
  have hcong : ∀ c' : Fin C,
      (if (rowScatterDims N E C wf).resultIdx? (ix2 e c') idx = some (ix2 r c) then upd (ix2 e c') else 0)
        = if c' = c ∧ (idx (ix2 e 0)).toInt = (r.val : Int) then upd (ix2 e c') else 0 :=
    fun c' => if_congr (rows_resultIdx_iff wf idx e c' r c) rfl rfl
  rw [Finset.sum_congr rfl fun c' _ => hcong c']
  by_cases ht : (idx (ix2 e 0)).toInt = (r.val : Int)
  · simp only [ht, and_true, if_true]
    rw [Finset.sum_ite_eq' Finset.univ c fun c' => upd (ix2 e c')]
    simp
  · simp only [ht, and_false, if_false, Finset.sum_const_zero]

/-- The dimension numbers of the scatter of a vector `[E]` into `[N]` along `dst : [E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the signed index of edge `e`. -/
theorem vec_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate. -/
theorem vec_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (by show (0 : Fin 1) ∉ (List.finRange 1).filter (· ∉ ([0] : List (Fin 1))); decide)]

/-- Update `e` lands on `r` exactly when edge `e`'s signed index is `r`. -/
theorem vec_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r)
      ↔ (idx (ix2 e 0)).toInt = (r.val : Int) := by
  have hs0 := vec_start0 wf idx e
  have hw0 := vec_window0 wf e
  have hr : r.val < N := r.isLt
  unfold ScatterDims.resultIdx?
  split
  · rename_i h
    rw [Option.some.injEq]
    have h0 := h 0
    constructor
    · intro hf
      have e0 : ((vecScatterDims N E wf).start (ix1 e) idx 0
          + ((vecScatterDims N E wf).window (ix1 e) 0 : Int)).toNat = r.val :=
        congrArg Fin.val (congrFun hf 0)
      rw [hs0, hw0] at h0 e0
      omega
    · intro ht
      funext a; refine Fin.ext ?_
      match a with
      | ⟨0, _⟩ =>
        show ((vecScatterDims N E wf).start (ix1 e) idx 0
          + ((vecScatterDims N E wf).window (ix1 e) 0 : Int)).toNat = r.val
        rw [hs0, hw0]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0]; omega

/-- THE ACCUMULATING VECTOR SCATTER READ AT `r`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r)
      = x (ix1 r) + ∑ e ∈ segment idx r, upd (ix1 e) := by
  unfold Ideal.hostScatterAdd
  congr 1
  rw [Finset.sum_filter, sum_idx1]
  unfold segment
  rw [Finset.sum_filter]
  exact Finset.sum_congr rfl fun e _ => if_congr (vec_resultIdx_iff wf idx e r) rfl rfl

end Cert.SegmentRows

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibRowMax.lean ====
/-
  The maximum of an `[m, n]` matrix along its second axis, at the exact extended reals and at explicit
  coordinates: at row `r` it is `max` folded over the row's entries `v (r, c)`, `c < n`, from the accumulator's
  value. The device's lane reduction and the host's one-operand reduce with a `max` body both read this way.
-/
import proofs.«176214_j15865609191627_1_alg».proof.Proof.LibRows

noncomputable section

open Idealize.ShloMosaic Idealize.ShloMosaic.ValueIdx

namespace Cert.LibRowMax

/-- Composing with "put column `k` back into row `r`" reads the row's entries. -/
theorem comp_lift_row {α : Type} {m n : ℕ} (v : (⟨2, ![m, n]⟩ : Shape).Idx → α)
    (h : (⟨2, ![m, n]⟩ : Shape).Reduces [1] (⟨1, ![m]⟩ : Shape)) (r : Fin m) :
    (v ∘ h.lift (ix1 r)) = fun k : Fin ((⟨2, ![m, n]⟩ : Shape).size 1) => v (ix2 r (⟨k.val, k.isLt⟩ : Fin n)) :=
  funext fun k => congrArg v (Cert.Rows.lift_row h r k)

/-- The device's maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.maximumf.neutral .f32 hφ)
    (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single, comp_lift_row]
  rfl

end Cert.LibRowMax

end
-- ==== Proof.LibHostReads.lean ====
/-
  Host array operations read at coordinates, over the extended reals — general facts, for any extents.

  * The accumulating scatters `[E, C] → [N, C]` and `[E] → [N]` along an index column `[E, 1]`, and the row gather
    `[N, C] → [E, C]`, stated for ANY dimension-number record that equals the row / vector one (so a printed record
    is passed with `rfl`): the host operation `Host.scatterAdd` / `Host.gather` itself, not the instance's field.
  * The `broadcast_in_dim` forms of a kept axis: `[m] → [m, 1]` at `(p, 0)`, `[m, 1] → [m, n]` at `(p, q)`,
    `[n] → [1, n]` at `(0, q)`, `[1, n] → [m, n]` at `(p, q)`.
  * The host's maximum and sum along the rows of a matrix (`stablehlo.reduce` over axis 1 with a scalar initial
    value), read at a row: the maximum folded from the initial value, the initial value plus the row's sum — from
    the `ReducesTo` fact alone.
  * Contents carried to a typed reference's buffer type and back (the casts an outlined function's operations
    put around their values cancel in pairs, with no evaluation of the buffer's type).
-/
import proofs.«176214_j15865609191627_1_alg».proof.Proof.LibSegmentRows
import proofs.«176214_j15865609191627_1_alg».proof.Proof.LibRowMax
import Idealize.ShloMosaic.PureOps.Reduce
import Idealize.ShloMosaic.Lib.Pipeline.Value
import Idealize.ShloMosaic.Lib.StableHlo.Run

noncomputable section

open Idealize.ShloMosaic Idealize.ShloMosaic.ValueIdx Cert.SegmentRows

namespace Cert.LibHostReads

variable {N E K C : ℕ}

/-- A host accumulating row scatter with the row dimension numbers, read at `(r, c)`. -/
theorem hostScatter_rows_apply (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = rowScatterDims N E C wf)
    (x : (⟨2, ![N, C]⟩ : Shape).Idx → EReal) (idx : IVec ⟨2, ![E, 1]⟩ 32) (upd : (⟨2, ![E, C]⟩ : Shape).Idx → EReal) (r : Fin N) (c : Fin C) :
    Host.scatterAdd (F := Ideal) (φ := .f32) d x idx upd (ix2 r c) = x (ix2 r c) + ∑ e ∈ segment idx r, upd (ix2 e c) := by
  subst hd
  exact scatterAdd_rows_apply wf x idx upd r c

/-- A host accumulating vector scatter with the vector dimension numbers, read at `r`. -/
theorem hostScatter_vec_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : (⟨1, ![N]⟩ : Shape).Idx → EReal) (idx : IVec ⟨2, ![E, 1]⟩ 32) (upd : (⟨1, ![E]⟩ : Shape).Idx → EReal) (r : Fin N) :
    Host.scatterAdd (F := Ideal) (φ := .f32) d x idx upd (ix1 r) = x (ix1 r) + ∑ e ∈ segment idx r, upd (ix1 e) := by
  subst hd
  exact scatterAdd_vec_apply wf x idx upd r

/-- A host row gather with the row dimension numbers, read at `(e, c)`. -/
theorem hostGather_rows_apply {α : Type} (hN : 0 < N) (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C]) (hd : d = rowGatherDims N E C wf)
    (x : (⟨2, ![N, C]⟩ : Shape).Idx → α) (idx : IVec ⟨2, ![E, 1]⟩ 32) (e : Fin E) (c : Fin C) :
    Host.gather d x idx (ix2 e c) = x (ix2 (takeRow hN idx e) c) := by
  subst hd
  exact gather_rows_apply hN wf x idx e c

/-! ## Kept axes, the `broadcast_in_dim` forms -/

variable {α : Type} {m n : ℕ}

/-- `[m] → [m, 1]` read at `(p, 0)`. -/
theorem colInner_apply (u : (⟨1, ![m]⟩ : Shape).Idx → α) (h : (⟨1, ![m]⟩ : Shape).BroadcastsInDim ⟨2, ![m, 1]⟩ ![0]) (p : Fin m) :
    broadcastInDim ⟨2, ![m, 1]⟩ ![0] h u (ix2 p 0) = u (ix1 p) :=
  broadcastInDim_apply ![0] h u (ix2 p 0) (ix1 p) fun a => by
    match a with
    | ⟨0, _⟩ =>
      show p.val = if m = 1 then 0 else p.val
      split_ifs with h1
      · have := p.isLt; omega
      · rfl

/-- `[m, 1] → [m, n]` read at `(p, q)`. -/
theorem colOuter_apply (w : (⟨2, ![m, 1]⟩ : Shape).Idx → α) (h : (⟨2, ![m, 1]⟩ : Shape).BroadcastsInDim ⟨2, ![m, n]⟩ ![0, 1])
    (p : Fin m) (q : Fin n) : broadcastInDim ⟨2, ![m, n]⟩ ![0, 1] h w (ix2 p q) = w (ix2 p 0) :=
  broadcastInDim_apply ![0, 1] h w (ix2 p q) (ix2 p 0) fun a => by
    match a with
    | ⟨0, _⟩ =>
      show p.val = if m = 1 then 0 else p.val
      split_ifs with h1
      · have := p.isLt; omega
      · rfl
    | ⟨1, _⟩ => rfl

/-- `[n] → [1, n]` read at `(0, q)`. -/
theorem rowInner_apply (u : (⟨1, ![n]⟩ : Shape).Idx → α) (h : (⟨1, ![n]⟩ : Shape).BroadcastsInDim ⟨2, ![1, n]⟩ ![1]) (q : Fin n) :
    broadcastInDim ⟨2, ![1, n]⟩ ![1] h u (ix2 0 q) = u (ix1 q) :=
  broadcastInDim_apply ![1] h u (ix2 0 q) (ix1 q) fun a => by
    match a with
    | ⟨0, _⟩ =>
      show q.val = if n = 1 then 0 else q.val
      split_ifs with h1
      · have := q.isLt; omega
      · rfl

/-- `[1, n] → [m, n]` read at `(p, q)`. -/
theorem rowOuter_apply (w : (⟨2, ![1, n]⟩ : Shape).Idx → α) (h : (⟨2, ![1, n]⟩ : Shape).BroadcastsInDim ⟨2, ![m, n]⟩ ![0, 1])
    (p : Fin m) (q : Fin n) : broadcastInDim ⟨2, ![m, n]⟩ ![0, 1] h w (ix2 p q) = w (ix2 0 q) :=
  broadcastInDim_apply ![0, 1] h w (ix2 p q) (ix2 0 q) fun a => by
    match a with
    | ⟨0, _⟩ => rfl
    | ⟨1, _⟩ =>
      show q.val = if n = 1 then 0 else q.val
      split_ifs with h1
      · have := q.isLt; omega
      · rfl

/-! ## Row reductions on the host -/

/-- The host's maximum along the rows at `p`: the maximum folded over the row from the initial value. -/
theorem hostRowMax_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduce (FloatOps.maximumf (F := Ideal) (φ := .f32)) v init h' hu (ix1 p)
      = (Finset.univ : Finset (Fin n)).fold max (init (Shape.Idx.first hu)) (fun c => v (ix2 p c)) := by
  have h : (⟨2, ![m, n]⟩ : Shape).Reduces [1] (⟨1, ![m]⟩ : Shape) := by
    obtain ⟨hr, hs⟩ := h'
    exact ⟨hr, Nat.one_pos, hs⟩
  rw [Host.reduce_eq_fold_single _ v init h' h hu (ix1 p), Cert.LibRowMax.comp_lift_row v h p]
  rfl

/-- The host's sum along the rows at `p`: the initial value plus the sum over the row. -/
theorem hostRowSum_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduceAdd (F := Ideal) (φ := .f32) v init h' hu (ix1 p) = init (Shape.Idx.first hu) + ∑ c : Fin n, v (ix2 p c) := by
  have h : (⟨2, ![m, n]⟩ : Shape).Reduces [1] (⟨1, ![m]⟩ : Shape) := by
    obtain ⟨hr, hs⟩ := h'
    exact ⟨hr, Nat.one_pos, hs⟩
  simp only [Host.reduceAdd, Ideal.hostReduceAdd_def]
  rw [Ideal.hostReduceAdd_single h' h]
  refine congrArg (_ + ·) (Finset.sum_congr rfl fun k _ => ?_)
  exact congrArg v (Cert.Rows.lift_row h p k)

/-! ## Typed references -/

open Idealize.ShloMosaic.StableHlo in
/-- Contents at a value's type carried to its buffer's type and back. -/
theorem ofBuf_toBuf {sig : RefSig} {Val : EltTy → Type} {T : BufTy} (y : TRef sig T) (v : T.Contents Val) :
    y.ofBuf (y.toBuf v) = v := by
  obtain ⟨r, e, h1, h2⟩ := y
  subst e
  rfl

end Cert.LibHostReads

end
-- ==== Proof.LayerSpec.lean ====
/-
  The three row-wise layers of a graph-convolution network, each as ONE function of whole arrays on the extended
  reals, entry by entry.

  * `product x w` is the matrix product: entry `(r, c)` is `Σ_k x (r, k) · w (k, c)`.
  * `biasRelu a β` adds the bias `β c` to column `c` of every row and clips at zero: entry `(r, c)` is `max (a (r, c) + β c) 0`.
  * `biasLogSoftmax a β` adds the bias to every row and takes the logarithm of the row's soft-max: with
    `v c = a (r, c) + β c` and `μ` the maximum of the row `v`, entry `(r, c)` is `(v c − μ) − log Σ_c' exp (v c' − μ)`.

  Every entry depends on ONE row of the first operand only: this is what lets a kernel compute a layer tile of rows by
  tile of rows. No finiteness is needed anywhere below: the two programs compared apply the same operations in the
  same order, and the laws used (a sum over a finite index set, `max` from minus infinity) hold for every extended real.
-/
import Idealize.ShloMosaic.PureOps.Ideal
import Idealize.ShloMosaic.Lib.ValueIdx

noncomputable section

namespace Cert.LayerSpec

open Idealize.ShloMosaic Idealize.ShloMosaic.ValueIdx

variable {M K N : ℕ}

/-- The matrix product at row `r`, column `c`. -/
def productAt (x : (⟨2, ![M, K]⟩ : Shape).Idx → EReal) (w : (⟨2, ![K, N]⟩ : Shape).Idx → EReal) (r : Fin M) (c : Fin N) : EReal :=
  ∑ k : Fin K, x (ix2 r k) * w (ix2 k c)

/-- The matrix product. -/
def product (x : (⟨2, ![M, K]⟩ : Shape).Idx → EReal) (w : (⟨2, ![K, N]⟩ : Shape).Idx → EReal) :
    (⟨2, ![M, N]⟩ : Shape).Idx → EReal := fun i => productAt x w (i 0) (i 1)

theorem product_apply (x : (⟨2, ![M, K]⟩ : Shape).Idx → EReal) (w : (⟨2, ![K, N]⟩ : Shape).Idx → EReal) (r : Fin M) (c : Fin N) :
    product x w (ix2 r c) = ∑ k : Fin K, x (ix2 r k) * w (ix2 k c) := rfl

/-- Bias and clip at row `r`, column `c`. -/
def biasReluAt (a : (⟨2, ![M, N]⟩ : Shape).Idx → EReal) (β : Fin N → EReal) (r : Fin M) (c : Fin N) : EReal :=
  max (a (ix2 r c) + β c) (Ideal.ofBits .f32 0x00000000#32)

/-- Bias, then clip at zero. -/
def biasRelu (a : (⟨2, ![M, N]⟩ : Shape).Idx → EReal) (β : Fin N → EReal) :
    (⟨2, ![M, N]⟩ : Shape).Idx → EReal := fun i => biasReluAt a β (i 0) (i 1)

theorem biasRelu_apply (a : (⟨2, ![M, N]⟩ : Shape).Idx → EReal) (β : Fin N → EReal) (r : Fin M) (c : Fin N) :
    biasRelu a β (ix2 r c) = max (a (ix2 r c) + β c) (Ideal.ofBits .f32 0x00000000#32) := rfl

/-- Row `r` with the bias added. -/
def biased (a : (⟨2, ![M, N]⟩ : Shape).Idx → EReal) (β : Fin N → EReal) (r : Fin M) (c : Fin N) : EReal :=
  a (ix2 r c) + β c

/-- The maximum of the biased row `r`, folded from minus infinity. -/
def rowMax (a : (⟨2, ![M, N]⟩ : Shape).Idx → EReal) (β : Fin N → EReal) (r : Fin M) : EReal :=
  (Finset.univ : Finset (Fin N)).fold max (Ideal.ofBits .f32 0xFF800000#32) (fun c => biased a β r c)

/-- Bias, then the logarithm of the row's soft-max, at row `r`, column `c`. -/
def biasLogSoftmaxAt (a : (⟨2, ![M, N]⟩ : Shape).Idx → EReal) (β : Fin N → EReal) (r : Fin M) (c : Fin N) : EReal :=
  (biased a β r c - rowMax a β r) - Ideal.log (∑ c' : Fin N, Ideal.exp (biased a β r c' - rowMax a β r))

/-- Bias, then the logarithm of each row's soft-max. -/
def biasLogSoftmax (a : (⟨2, ![M, N]⟩ : Shape).Idx → EReal) (β : Fin N → EReal) :
    (⟨2, ![M, N]⟩ : Shape).Idx → EReal := fun i => biasLogSoftmaxAt a β (i 0) (i 1)

theorem biasLogSoftmax_apply (a : (⟨2, ![M, N]⟩ : Shape).Idx → EReal) (β : Fin N → EReal) (r : Fin M) (c : Fin N) :
    biasLogSoftmax a β (ix2 r c) = biasLogSoftmaxAt a β r c := rfl

end Cert.LayerSpec

end
-- ==== Proof.RefRun.lean ====
/-
  The reference program's run, read in stretches.

  The program is one straight line of 121 operations, so its final buffers are the fold of the operations' results over
  the launch contents. The fold is read a stretch at a time, each stretch against whatever contents it starts from: the
  three matrix products as `LayerSpec.product`, the two bias-and-clip stretches as `LayerSpec.biasRelu`, the last stretch
  (bias, then the row-wise log-soft-max: the row maximum from minus infinity, the shifted exponentials' sum from zero) as
  `LayerSpec.biasLogSoftmax`. The arguments are written by no operation, and the index lists and edge weights by none
  after the fortieth: they are found unchanged wherever a later stretch reads them.
-/
import proofs.«176214_j15865609191627_1_alg».proof.Proof.RefProgram
import proofs.«176214_j15865609191627_1_alg».proof.Proof.LibAfterAppend
import proofs.«176214_j15865609191627_1_alg».proof.Proof.LibPlainDot
import proofs.«176214_j15865609191627_1_alg».proof.Proof.LibHostReads
import proofs.«176214_j15865609191627_1_alg».proof.Proof.LayerSpec

set_option maxRecDepth 16384

noncomputable section

namespace Cert.ReferenceIdeal.Stretches

open Idealize.ShloMosaic Idealize.ShloMosaic.TcCoe Idealize.ShloMosaic.ValueIdx Idealize.ShloMosaic.StableHlo Idealize.SL.Sem
open Cert.ReferenceIdeal Cert.ReferenceIdeal.Gen Cert.ReferenceIdeal.Program

/-- The buffers after the first `k` operations, from contents `W`. -/
abbrev upTo (k : ℕ) (W : Valuation τ sig (Elt Ideal)) : Valuation τ sig (Elt Ideal) := after ((ops (F := Ideal)).take k) W

/-- The first `k + j` operations are the first `k`, then the next `j`. -/
theorem upTo_add (k j : ℕ) (W : Valuation τ sig (Elt Ideal)) :
    upTo (k + j) W = after (((ops (F := Ideal)).drop k).take j) (upTo k W) := by
  unfold upTo
  rw [List.take_add, Cert.LibAfterAppend.after_concat]

/-- All 121 operations. -/
theorem upTo_all (W : Valuation τ sig (Elt Ideal)) : upTo 121 W = after (ops (F := Ideal)) W := by
  unfold upTo
  rw [List.take_of_length_le (by rfl)]

/-! ## What no operation writes -/

/-- No operation writes an argument. -/
theorem args_unwritten : ∀ a ∈ ([main_arg0, main_arg2, main_arg3, main_arg4, main_arg5, main_arg6, main_arg7] : List (Ref sig .tc)),
    ∀ op ∈ (ops (F := Ideal)), Proc.devRef .tc a ∉ op.writes := by
  intro a ha
  simp only [List.mem_cons, List.mem_singleton, List.not_mem_nil, or_false] at ha
  refine List.forall_iff_forall_mem.mp ?_
  rcases ha with rfl | rfl | rfl | rfl | rfl | rfl | rfl <;>
  · simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)

/-- After the fortieth operation none writes an index list or the edge weights. -/
theorem graph_unwritten : ∀ b ∈ ([main_v3, main_v6, main_v29] : List (Ref sig .tc)),
    ∀ op ∈ (ops (F := Ideal)).drop 40, Proc.devRef .tc b ∉ op.writes := by
  intro b hb
  simp only [List.mem_cons, List.mem_singleton, List.not_mem_nil, or_false] at hb
  refine List.forall_iff_forall_mem.mp ?_
  rcases hb with rfl | rfl | rfl <;>
  · simp only [ops, List.drop_succ_cons, List.drop_zero, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-- After the seventh operation none writes an index list. -/
theorem lists_unwritten : ∀ b ∈ ([main_v3, main_v6] : List (Ref sig .tc)),
    ∀ op ∈ (ops (F := Ideal)).drop 7, Proc.devRef .tc b ∉ op.writes := by
  intro b hb
  simp only [List.mem_cons, List.mem_singleton, List.not_mem_nil, or_false] at hb
  refine List.forall_iff_forall_mem.mp ?_
  rcases hb with rfl | rfl <;>
  · simp only [ops, List.drop_succ_cons, List.drop_zero, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-- An argument is found as launched after any number of operations. -/
theorem arg_kept (k : ℕ) (W : Valuation τ sig (Elt Ideal)) (a : Ref sig .tc)
    (ha : a ∈ ([main_arg0, main_arg2, main_arg3, main_arg4, main_arg5, main_arg6, main_arg7] : List (Ref sig .tc))) :
    upTo k W (Proc.devRef .tc a) = W (Proc.devRef .tc a) :=
  after_of_forall_not_mem _ _ fun op hop => args_unwritten a ha op (List.mem_of_mem_take hop)

/-- The index lists and the edge weights are found unchanged any number of operations after the fortieth. -/
theorem graph_kept (j : ℕ) (W : Valuation τ sig (Elt Ideal)) (b : Ref sig .tc) (hb : b ∈ ([main_v3, main_v6, main_v29] : List (Ref sig .tc))) :
    after (((ops (F := Ideal)).drop 40).take j) W (Proc.devRef .tc b) = W (Proc.devRef .tc b) :=
  after_of_forall_not_mem _ _ fun op hop => graph_unwritten b hb op (List.mem_of_mem_take hop)

/-- The index lists are found unchanged any number of operations after the seventh. -/
theorem lists_kept (j : ℕ) (W : Valuation τ sig (Elt Ideal)) (b : Ref sig .tc) (hb : b ∈ ([main_v3, main_v6] : List (Ref sig .tc))) :
    after (((ops (F := Ideal)).drop 7).take j) W (Proc.devRef .tc b) = W (Proc.devRef .tc b) :=
  after_of_forall_not_mem _ _ fun op hop => lists_unwritten b hb op (List.mem_of_mem_take hop)

/-! ## The host's layers on whole arrays -/

/-- The host's bias and clip — the bias vector made a row, repeated down the rows, added, and the maximum with the zero
    array taken — is `LayerSpec.biasRelu`. -/
theorem hostBiasRelu (A : FVec Ideal S50000x256 .f32) (β : FVec Ideal S256 .f32) :
    maximumf (addf A (broadcastInDim S50000x256 ![0, 1] bcast_S1x256_S50000x256_0_1 (broadcastInDim S1x256 ![1] bcast_S256_S1x256_1 β)))
        (broadcastInDim S50000x256 ![] bcast_S_S50000x256 (constant (F := Ideal) S_ .f32 0x00000000#32))
      = Cert.LayerSpec.biasRelu A (fun q : Fin 256 => β (ix1 q)) := by
  funext i
  obtain ⟨a, b, rfl⟩ : ∃ (a : Fin 50000) (b : Fin 256), i = ix2 a b := ⟨i 0, i 1, eq_ix2 i⟩
  show max (A (ix2 a b) + broadcastInDim S50000x256 ![0, 1] bcast_S1x256_S50000x256_0_1 (broadcastInDim S1x256 ![1] bcast_S256_S1x256_1 β) (ix2 a b))
      (broadcastInDim S50000x256 ![] bcast_S_S50000x256 (constant (F := Ideal) S_ .f32 0x00000000#32) (ix2 a b)) = _
  rw [Cert.LibHostReads.rowOuter_apply, Cert.LibHostReads.rowInner_apply,
    broadcastInDim_apply ![] bcast_S_S50000x256 _ (ix2 a b) ix0 (fun d => d.elim0)]
  rfl

/-- The biased scores, entry by entry. -/
theorem hostBiased_apply (A : FVec Ideal S50000x10 .f32) (β : FVec Ideal S10 .f32) (r : Fin 50000) (q : Fin 10) :
    addf A (broadcastInDim S50000x10 ![0, 1] bcast_S1x10_S50000x10_0_1 (broadcastInDim S1x10 ![1] bcast_S10_S1x10_1 β)) (ix2 r q)
      = Cert.LayerSpec.biased A (fun q : Fin 10 => β (ix1 q)) r q := by
  show A (ix2 r q) + broadcastInDim S50000x10 ![0, 1] bcast_S1x10_S50000x10_0_1 (broadcastInDim S1x10 ![1] bcast_S10_S1x10_1 β) (ix2 r q) = _
  rw [Cert.LibHostReads.rowOuter_apply, Cert.LibHostReads.rowInner_apply]
  rfl

/-- The host's bias and row-wise log-soft-max is `LayerSpec.biasLogSoftmax`: the row maximum is a fold from minus infinity
    (taking the maximum with minus infinity once more changes nothing), the sum of the shifted exponentials starts from zero. -/
theorem hostBiasLogSoftmax (A : FVec Ideal S50000x10 .f32) (β : FVec Ideal S10 .f32) :
    subf
        (subf (addf A (broadcastInDim S50000x10 ![0, 1] bcast_S1x10_S50000x10_0_1 (broadcastInDim S1x10 ![1] bcast_S10_S1x10_1 β)))
          (broadcastInDim S50000x10 ![0, 1] bcast_S50000x1_S50000x10_0_1 (broadcastInDim S50000x1 ![0] bcast_S50000_S50000x1_0
            (maximumf (broadcastInDim S50000 ![] bcast_S_S50000 (constant (F := Ideal) S_ .f32 0xFF800000#32))
              (Host.reduce FloatOps.maximumf
                (addf A (broadcastInDim S50000x10 ![0, 1] bcast_S1x10_S50000x10_0_1 (broadcastInDim S1x10 ![1] bcast_S10_S1x10_1 β)))
                (constant (F := Ideal) S_ .f32 0xFF800000#32) reducesTo_S50000x10_S50000_d1 h_S_)))))
        (broadcastInDim S50000x10 ![0, 1] bcast_S50000x1_S50000x10_0_1
          (Host.log (broadcastInDim S50000x1 ![0] bcast_S50000_S50000x1_0
            (Host.reduceAdd
              (Host.exp (subf (addf A (broadcastInDim S50000x10 ![0, 1] bcast_S1x10_S50000x10_0_1 (broadcastInDim S1x10 ![1] bcast_S10_S1x10_1 β)))
                (broadcastInDim S50000x10 ![0, 1] bcast_S50000x1_S50000x10_0_1 (broadcastInDim S50000x1 ![0] bcast_S50000_S50000x1_0
                  (maximumf (broadcastInDim S50000 ![] bcast_S_S50000 (constant (F := Ideal) S_ .f32 0xFF800000#32))
                    (Host.reduce FloatOps.maximumf
                      (addf A (broadcastInDim S50000x10 ![0, 1] bcast_S1x10_S50000x10_0_1 (broadcastInDim S1x10 ![1] bcast_S10_S1x10_1 β)))
                      (constant (F := Ideal) S_ .f32 0xFF800000#32) reducesTo_S50000x10_S50000_d1 h_S_))))))
              (constant (F := Ideal) S_ .f32 0x00000000#32) reducesTo_S50000x10_S50000_d1 h_S_))))
      = Cert.LayerSpec.biasLogSoftmax A (fun q : Fin 10 => β (ix1 q)) := by
  generalize hv : addf A (broadcastInDim S50000x10 ![0, 1] bcast_S1x10_S50000x10_0_1 (broadcastInDim S1x10 ![1] bcast_S10_S1x10_1 β)) = v
  have hvc : ∀ (r : Fin 50000) (q : Fin 10), v (ix2 r q) = Cert.LayerSpec.biased A (fun q : Fin 10 => β (ix1 q)) r q :=
    fun r q => by rw [← hv]; exact hostBiased_apply A β r q
  -- the row maximum
  generalize hμ : maximumf (broadcastInDim S50000 ![] bcast_S_S50000 (constant (F := Ideal) S_ .f32 0xFF800000#32))
      (Host.reduce FloatOps.maximumf v (constant (F := Ideal) S_ .f32 0xFF800000#32) reducesTo_S50000x10_S50000_d1 h_S_) = μ
  have hmax : ∀ r : Fin 50000, μ (ix1 r) = Cert.LayerSpec.rowMax A (fun q : Fin 10 => β (ix1 q)) r := fun r => by
    rw [← hμ]
    show max (broadcastInDim S50000 ![] bcast_S_S50000 (constant (F := Ideal) S_ .f32 0xFF800000#32) (ix1 r))
        (Host.reduce FloatOps.maximumf v (constant (F := Ideal) S_ .f32 0xFF800000#32) reducesTo_S50000x10_S50000_d1 h_S_ (ix1 r)) = _
    rw [broadcastInDim_apply ![] bcast_S_S50000 _ (ix1 r) ix0 (fun d => d.elim0), Cert.LibHostReads.hostRowMax_apply]
    show max (Ideal.ofBits .f32 0xFF800000#32) _ = _
    rw [Cert.Rows.neg_inf_max]
    unfold Cert.LayerSpec.rowMax
    exact congrArg (fun f => (Finset.univ : Finset (Fin 10)).fold max (Ideal.ofBits .f32 0xFF800000#32) f) (funext (hvc r))
  have hkept : ∀ (r : Fin 50000) (q : Fin 10),
      broadcastInDim S50000x10 ![0, 1] bcast_S50000x1_S50000x10_0_1 (broadcastInDim S50000x1 ![0] bcast_S50000_S50000x1_0 μ) (ix2 r q)
        = Cert.LayerSpec.rowMax A (fun q : Fin 10 => β (ix1 q)) r := fun r q => by
    rw [Cert.LibHostReads.colOuter_apply, Cert.LibHostReads.colInner_apply, hmax]
  funext i
  obtain ⟨r, c, rfl⟩ : ∃ (r : Fin 50000) (c : Fin 10), i = ix2 r c := ⟨i 0, i 1, eq_ix2 i⟩
  -- the sum of the shifted exponentials
  generalize hs : Host.reduceAdd (Host.exp (subf v (broadcastInDim S50000x10 ![0, 1] bcast_S50000x1_S50000x10_0_1
      (broadcastInDim S50000x1 ![0] bcast_S50000_S50000x1_0 μ)))) (constant (F := Ideal) S_ .f32 0x00000000#32) reducesTo_S50000x10_S50000_d1 h_S_ = σ
  have hsum : σ (ix1 r) = ∑ q : Fin 10, Ideal.exp (Cert.LayerSpec.biased A (fun q : Fin 10 => β (ix1 q)) r q - Cert.LayerSpec.rowMax A (fun q : Fin 10 => β (ix1 q)) r) := by
    rw [← hs, Cert.LibHostReads.hostRowSum_apply]
    show Ideal.ofBits .f32 0x00000000#32 + _ = _
    rw [Ideal.ofBits_zero_f32, zero_add]
    refine Finset.sum_congr rfl fun q _ => ?_
    show Ideal.exp (v (ix2 r q) - broadcastInDim S50000x10 ![0, 1] bcast_S50000x1_S50000x10_0_1 (broadcastInDim S50000x1 ![0] bcast_S50000_S50000x1_0 μ) (ix2 r q)) = _
    rw [hvc, hkept]
  show (v (ix2 r c) - broadcastInDim S50000x10 ![0, 1] bcast_S50000x1_S50000x10_0_1 (broadcastInDim S50000x1 ![0] bcast_S50000_S50000x1_0 μ) (ix2 r c))
      - broadcastInDim S50000x10 ![0, 1] bcast_S50000x1_S50000x10_0_1 (Host.log (broadcastInDim S50000x1 ![0] bcast_S50000_S50000x1_0 σ)) (ix2 r c) = _
  rw [hvc, hkept, Cert.LibHostReads.colOuter_apply]
  show _ - Ideal.log (broadcastInDim S50000x1 ![0] bcast_S50000_S50000x1_0 σ (ix2 r 0)) = _
  rw [Cert.LibHostReads.colInner_apply, hsum]
  rfl

/-! ## The layers' stretches -/

/-- The first product: operation 41. -/
theorem product1 (W : Valuation τ sig (Elt Ideal)) :
    after (((ops (F := Ideal)).drop 40).take 1) W (Proc.devRef .tc main_v30)
      = Cert.LayerSpec.product (W (Proc.devRef .tc main_arg0)) (W (Proc.devRef .tc main_arg2)) := by
  simp only [ops, List.drop_succ_cons, List.drop_zero, List.take_succ_cons, List.take_zero]
  after_results
  funext i
  obtain ⟨a, b, rfl⟩ : ∃ (a : Fin 50000) (b : Fin 256), i = ix2 a b := ⟨i 0, i 1, eq_ix2 i⟩
  exact Cert.LibPlainDot.dotGeneral_plain_apply dot_S50000x128_S128x256_S50000x256_1_0_0_1_n_n rfl rfl rfl rfl rfl rfl none _ _ _ a b

/-- The second product: operation 64. -/
theorem product2 (W : Valuation τ sig (Elt Ideal)) :
    after (((ops (F := Ideal)).drop 63).take 1) W (Proc.devRef .tc main_v48)
      = Cert.LayerSpec.product (W (Proc.devRef .tc main_v47)) (W (Proc.devRef .tc main_arg4)) := by
  simp only [ops, List.drop_succ_cons, List.drop_zero, List.take_succ_cons, List.take_zero]
  after_results
  funext i
  obtain ⟨a, b, rfl⟩ : ∃ (a : Fin 50000) (b : Fin 256), i = ix2 a b := ⟨i 0, i 1, eq_ix2 i⟩
  exact Cert.LibPlainDot.dotGeneral_plain_apply dot_S50000x256_S256x256_S50000x256_1_0_0_1_n_n rfl rfl rfl rfl rfl rfl none _ _ _ a b

/-- The third product: operation 87. -/
theorem product3 (W : Valuation τ sig (Elt Ideal)) :
    after (((ops (F := Ideal)).drop 86).take 1) W (Proc.devRef .tc main_v66)
      = Cert.LayerSpec.product (W (Proc.devRef .tc main_v65)) (W (Proc.devRef .tc main_arg6)) := by
  simp only [ops, List.drop_succ_cons, List.drop_zero, List.take_succ_cons, List.take_zero]
  after_results
  funext i
  obtain ⟨a, b, rfl⟩ : ∃ (a : Fin 50000) (b : Fin 10), i = ix2 a b := ⟨i 0, i 1, eq_ix2 i⟩
  exact Cert.LibPlainDot.dotGeneral_plain_apply dot_S50000x256_S256x10_S50000x10_1_0_0_1_n_n rfl rfl rfl rfl rfl rfl none _ _ _ a b

/-- The first bias and clip: operations 58 to 63. -/
theorem bias1 (W : Valuation τ sig (Elt Ideal)) :
    after (((ops (F := Ideal)).drop 57).take 6) W (Proc.devRef .tc main_v47)
      = Cert.LayerSpec.biasRelu (W (Proc.devRef .tc main_v43)) (fun q : Fin 256 => W (Proc.devRef .tc main_arg3) (ix1 q)) := by
  simp only [ops, List.drop_succ_cons, List.drop_zero, List.take_succ_cons, List.take_zero]
  after_results
  simp only [Cert.LibHostReads.ofBuf_toBuf]
  exact hostBiasRelu (W (Proc.devRef .tc main_v43)) (W (Proc.devRef .tc main_arg3))

/-- The second bias and clip: operations 81 to 86. -/
theorem bias2 (W : Valuation τ sig (Elt Ideal)) :
    after (((ops (F := Ideal)).drop 80).take 6) W (Proc.devRef .tc main_v65)
      = Cert.LayerSpec.biasRelu (W (Proc.devRef .tc main_v61)) (fun q : Fin 256 => W (Proc.devRef .tc main_arg5) (ix1 q)) := by
  simp only [ops, List.drop_succ_cons, List.drop_zero, List.take_succ_cons, List.take_zero]
  after_results
  simp only [Cert.LibHostReads.ofBuf_toBuf]
  exact hostBiasRelu (W (Proc.devRef .tc main_v61)) (W (Proc.devRef .tc main_arg5))

/-- The bias and the row-wise log-soft-max: the last eighteen operations. -/
theorem softmax3 (W : Valuation τ sig (Elt Ideal)) :
    after ((ops (F := Ideal)).drop 103) W (Proc.devRef .tc main_v83)
      = Cert.LayerSpec.biasLogSoftmax (W (Proc.devRef .tc main_v79)) (fun q : Fin 10 => W (Proc.devRef .tc main_arg7) (ix1 q)) := by
  simp only [ops, List.drop_succ_cons, List.drop_zero]
  after_results
  simp only [Cert.LibHostReads.ofBuf_toBuf]
  exact hostBiasLogSoftmax (W (Proc.devRef .tc main_v79)) (W (Proc.devRef .tc main_arg7))

end Cert.ReferenceIdeal.Stretches

end
-- ==== Proof.RefResult.lean ====
/-
  The reference program's run, with its result named.

  A straight line of host operations on buffers nothing else touches: every execution terminates, nothing faulting, with
  each buffer at the fold of the operations' results over its launch contents. The result buffer is therefore at that
  fold; an argument, which no operation writes, is as launched.
-/
import proofs.«176214_j15865609191627_1_alg».proof.Proof.RefRun

set_option maxRecDepth 16384

noncomputable section

namespace Cert.ReferenceIdeal.Result

open Idealize.ShloMosaic Idealize.ShloMosaic.TcCoe Idealize.ShloMosaic.StableHlo Idealize.SL.Sem
open Cert.ReferenceIdeal Cert.ReferenceIdeal.Gen Cert.ReferenceIdeal.Program Cert.ReferenceIdeal.Stretches

/-- No operation writes the edge array either. -/
theorem edges_unwritten : ∀ op ∈ (ops (F := Ideal)), Proc.devRef .tc main_arg1 ∉ op.writes := by
  refine List.forall_iff_forall_mem.mp ?_
  simp only [ops, List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

variable (m : (ℓ : Loc nD τ sig) → Buf (Elt Ideal) ℓ) (ρ : Dev nD → PrngReg)

/-- An argument ends as launched. -/
theorem arg_end (c : Dev nD) (a : Ref sig .tc)
    (ha : a ∈ ([main_arg0, main_arg2, main_arg3, main_arg4, main_arg5, main_arg6, main_arg7] : List (Ref sig .tc))) :
    after (ops (F := Ideal)) (launchContents m c) (Proc.devRef .tc a) = m ((c.tc : Thread nD τ).loc a) :=
  after_of_forall_not_mem _ _ (args_unwritten a ha)

/-- Every execution terminates, nothing faulting, with the result buffer at the fold of the operations over the launch
    contents and the arguments as launched. -/
theorem result_at_fold : θ_run defs (onTc (τ := τ) (main (F := Ideal))) ⟨m, fun _ => 0, ρ⟩ (fun r => ∀ c : Dev nD,
      r.2.mem ((c.tc : Thread nD τ).loc main_v83) = after (ops (F := Ideal)) (launchContents m c) (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      ⟨h c main_v83,
       (h c main_arg0).trans (arg_end m c _ (by simp)),
       (h c main_arg1).trans (after_of_forall_not_mem _ _ edges_unwritten),
       (h c main_arg2).trans (arg_end m c _ (by simp)),
       (h c main_arg3).trans (arg_end m c _ (by simp)),
       (h c main_arg4).trans (arg_end m c _ (by simp)),
       (h c main_arg5).trans (arg_end m c _ (by simp)),
       (h c main_arg6).trans (arg_end m c _ (by simp)),
       (h c main_arg7).trans (arg_end m c _ (by simp))⟩)
    (run_seq scopedRefs_eq scopedSems_eq defs main (fun _ => ops) main_eq (fun _ => ops_sub) m ρ)

end Cert.ReferenceIdeal.Result

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«176214_j15865609191627_1_alg».proof.Proof.LibRows
import proofs.«176214_j15865609191627_1_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.TileBodies.lean ====
/-
  What each kernel body computes on one tile of rows, read entry by entry on the extended reals.

  A tile is 2000 consecutive rows of the layer's input; the weight matrix, or the bias kept as a `[1, n]` row, is
  whole in every tile. At entry `(a, b)` of the tile:
  * the product bodies give `Σ_k x (a, k) · w (k, b)` — the change of float format before the product is the identity
    on the extended reals, and the accumulator starts at zero;
  * the bias-and-clip bodies give `max (x (a, b) + β (0, b)) 0`;
  * the bias-and-log-soft-max body gives `(v b − μ) − log Σ_c exp (v c − μ)` with `v c = x (a, c) + β (0, c)` and `μ`
    the maximum of `v` folded from minus infinity.
  Each is the corresponding layer of `LayerSpec` restricted to the tile's rows.
-/
import proofs.«176214_j15865609191627_1_alg».proof.Proof.Gen.KernelIdeal.Skeleton
import proofs.«176214_j15865609191627_1_alg».proof.Proof.LibPlainMatmul
import proofs.«176214_j15865609191627_1_alg».proof.Proof.LibRows
import proofs.«176214_j15865609191627_1_alg».proof.Proof.LibRowMax
import proofs.«176214_j15865609191627_1_alg».proof.Proof.LibMatrixReduce
import proofs.«176214_j15865609191627_1_alg».proof.Proof.LayerSpec
import Idealize.ShloMosaic.Lib.Pipeline.Value

noncomputable section

namespace Cert.TileBodies

open Idealize.ShloMosaic Idealize.ShloMosaic.ValueIdx Cert.KernelIdeal Cert.KernelIdeal.Gen

/-- The first layer's product on a tile. -/
theorem product0 (x : Vec Ideal S2000x128 .f32) (w : Vec Ideal S128x256 .f32) (a : Fin 2000) (b : Fin 256) :
    k0_pay1 (F := Ideal) x w (ix2 a b) = ∑ k : Fin 128, x (ix2 a k) * w (ix2 k b) := by
  unfold k0_pay1
  exact Cert.LibPlainMatmul.matmul_zero_apply dot_S2000x128_S128x256_S2000x256_1_0_0_1_n_n rfl rfl rfl rfl rfl rfl none _ _ a b

/-- The second layer's product on a tile. -/
theorem product2 (x : Vec Ideal S2000x256 .f32) (w : Vec Ideal S256x256 .f32) (a : Fin 2000) (b : Fin 256) :
    k2_pay1 (F := Ideal) x w (ix2 a b) = ∑ k : Fin 256, x (ix2 a k) * w (ix2 k b) := by
  unfold k2_pay1
  rw [shapeCast_self]
  exact Cert.LibPlainMatmul.matmul_zero_apply dot_S2000x256_S256x256_S2000x256_1_0_0_1_n_n rfl rfl rfl rfl rfl rfl none _ _ a b

/-- The third layer's product on a tile. -/
theorem product4 (x : Vec Ideal S2000x256 .f32) (w : Vec Ideal S256x10 .f32) (a : Fin 2000) (b : Fin 10) :
    k4_pay1 (F := Ideal) x w (ix2 a b) = ∑ k : Fin 256, x (ix2 a k) * w (ix2 k b) := by
  unfold k4_pay1
  rw [shapeCast_self]
  exact Cert.LibPlainMatmul.matmul_zero_apply dot_S2000x256_S256x10_S2000x10_1_0_0_1_n_n rfl rfl rfl rfl rfl rfl none _ _ a b

/-- Bias and clip on a tile (the first layer's). -/
theorem biasRelu1 (x : Vec Ideal S2000x256 .f32) (β : Vec Ideal S1x256 .f32) (a : Fin 2000) (b : Fin 256) :
    k1_pay1 (F := Ideal) x β (ix2 a b) = max (x (ix2 a b) + β (ix2 0 b)) (Ideal.ofBits .f32 0x00000000#32) := by
  unfold k1_pay1
  rw [shapeCast_self, shapeCast_self]
  show max (x (ix2 a b) + broadcastTo S2000x256 β broadcasts_S1x256_S2000x256 (ix2 a b)) _ = _
  rw [Cert.Rows.bcast_row (by decide)]
  rfl

/-- Bias and clip on a tile (the second layer's). -/
theorem biasRelu3 (x : Vec Ideal S2000x256 .f32) (β : Vec Ideal S1x256 .f32) (a : Fin 2000) (b : Fin 256) :
    k3_pay1 (F := Ideal) x β (ix2 a b) = max (x (ix2 a b) + β (ix2 0 b)) (Ideal.ofBits .f32 0x00000000#32) := by
  unfold k3_pay1
  rw [shapeCast_self, shapeCast_self]
  show max (x (ix2 a b) + broadcastTo S2000x256 β broadcasts_S1x256_S2000x256 (ix2 a b)) _ = _
  rw [Cert.Rows.bcast_row (by decide)]
  rfl

/-- The tile's row `a` with the bias row added. -/
def biasedRow (x : Vec Ideal S2000x10 .f32) (β : Vec Ideal S1x10 .f32) (a : Fin 2000) (c : Fin 10) : EReal :=
  x (ix2 a c) + β (ix2 0 c)

/-- Its maximum, folded from minus infinity. -/
def biasedMax (x : Vec Ideal S2000x10 .f32) (β : Vec Ideal S1x10 .f32) (a : Fin 2000) : EReal :=
  (Finset.univ : Finset (Fin 10)).fold max (Ideal.ofBits .f32 0xFF800000#32) (fun c => biasedRow x β a c)

/-- The bias-added tile, entry by entry. -/
theorem biased_apply (x : Vec Ideal S2000x10 .f32) (β : Vec Ideal S1x10 .f32) (a : Fin 2000) (c : Fin 10) :
    addf (F := Ideal) (φ := .f32) (shapeCast S2000x10 x shapeCasts_S2000x10_S2000x10) (broadcastTo S2000x10 (shapeCast S1x10 β shapeCasts_S1x10_S1x10) broadcasts_S1x10_S2000x10) (ix2 a c)
      = biasedRow x β a c := by
  rw [shapeCast_self, shapeCast_self]
  show x (ix2 a c) + broadcastTo S2000x10 β broadcasts_S1x10_S2000x10 (ix2 a c) = _
  rw [Cert.Rows.bcast_row (by decide)]
  rfl

/-- Bias and log-soft-max on a tile. -/
theorem biasLogSoftmax5 (x : Vec Ideal S2000x10 .f32) (β : Vec Ideal S1x10 .f32) (a : Fin 2000) (b : Fin 10) :
    k5_pay1 (F := Ideal) x β (ix2 a b)
      = (biasedRow x β a b - biasedMax x β a) - Ideal.log (∑ c : Fin 10, Ideal.exp (biasedRow x β a c - biasedMax x β a)) := by
  unfold k5_pay1
  generalize hv : addf (F := Ideal) (φ := .f32) (shapeCast S2000x10 x shapeCasts_S2000x10_S2000x10) (broadcastTo S2000x10 (shapeCast S1x10 β shapeCasts_S1x10_S1x10) broadcasts_S1x10_S2000x10) = v
  have hvc : ∀ c : Fin 10, v (ix2 a c) = biasedRow x β a c := fun c => by rw [← hv]; exact biased_apply x β a c
  -- the row's maximum, kept as a column and spread over the row
  generalize hμ : multiReduction .maximumf [1] S2000 v 0xFF800000#32 reduces_S2000x10_S2000 (.inl rfl) rfl = μ
  have hmax : μ (ix1 a) = biasedMax x β a := by
    rw [← hμ]
    refine (Cert.LibRowMax.rowMax_apply v 0xFF800000#32 reduces_S2000x10_S2000 (.inl rfl) rfl a).trans ?_
    unfold biasedMax
    exact congrArg (fun f => (Finset.univ : Finset (Fin 10)).fold max (Ideal.ofBits .f32 0xFF800000#32) f) (funext hvc)
  have hkept : ∀ c : Fin 10, broadcastTo S2000x10 (shapeCast S2000x1 μ shapeCasts_S2000_S2000x1) broadcasts_S2000x1_S2000x10 (ix2 a c) = biasedMax x β a := fun c => by
    rw [Cert.LibMatrixReduce.keptCol_apply (by decide), hmax]
  -- the shifted row and its exponentials' sum
  generalize hs : multiReduction .add [1] S2000 (exp (subf v (broadcastTo S2000x10 (shapeCast S2000x1 μ shapeCasts_S2000_S2000x1) broadcasts_S2000x1_S2000x10))) 0x00000000#32 reduces_S2000x10_S2000 (.inl rfl) rfl = σ
  have hsum : σ (ix1 a) = ∑ c : Fin 10, Ideal.exp (biasedRow x β a c - biasedMax x β a) := by
    rw [← hs]
    refine (Cert.LibMatrixReduce.rowSum_apply _ 0x00000000#32 reduces_S2000x10_S2000 (.inl rfl) rfl a).trans ?_
    refine Finset.sum_congr rfl fun c _ => ?_
    show Ideal.exp (v (ix2 a c) - broadcastTo S2000x10 (shapeCast S2000x1 μ shapeCasts_S2000_S2000x1) broadcasts_S2000x1_S2000x10 (ix2 a c)) = _
    rw [hvc, hkept]
  show (v (ix2 a b) - broadcastTo S2000x10 (shapeCast S2000x1 μ shapeCasts_S2000_S2000x1) broadcasts_S2000x1_S2000x10 (ix2 a b))
      - broadcastTo S2000x10 (log (shapeCast S2000x1 σ shapeCasts_S2000_S2000x1)) broadcasts_S2000x1_S2000x10 (ix2 a b) = _
  rw [hvc, hkept, Cert.Rows.bcast_col (by decide)]
  show _ - Ideal.log (shapeCast S2000x1 σ shapeCasts_S2000_S2000x1 (ix2 a 0)) = _
  rw [Cert.Rows.cast_col, hsum]

end Cert.TileBodies

end
-- ==== Proof.Layer1Product.lean ====
/-
  The first layer's product, tile by tile, is the whole product.

  The pipeline cuts the `[50000, 128]` input into 25 tiles of 2000 rows; at tile `t` the body sees rows
  `2000·t … 2000·t + 1999` of the input and the whole weight matrix, and writes rows `2000·t …` of the output. Entry
  `(2000·t + a, b)` of the whole product needs row `2000·t + a` of the input only, which is row `a` of the tile: so
  what tile `t` writes back is the whole product read through the tile's rectangle, and since the 25 tiles cover all
  50000 rows the output array ends holding the whole product.
-/
import proofs.«176214_j15865609191627_1_alg».proof.Proof.Gen.KernelIdeal.Frame
import proofs.«176214_j15865609191627_1_alg».proof.Proof.TileBodies

set_option maxRecDepth 16384

noncomputable section

namespace Cert.Layer1Product

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Tile `t`'s block indices: the input and the output move down the rows together, the weights stay. -/
theorem tile_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile `t` writes back is the whole product read through the tile's rectangle. -/
theorem flushed_eq (c : Dev nD) (t : Fin cfg0.N) :
    (dat0 V c).flushed 2 t
      = ((cfg0.win 2).blk t).view.read (Elt Ideal) (Cert.LayerSpec.product (V c main_arg0) (V c main_arg2)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x256) origin]
  funext j
  obtain ⟨a, b, rfl⟩ : ∃ (a : Fin 2000) (b : Fin 256), j = ix2 a b := ⟨j 0, j 1, eq_ix2 j⟩
  refine (Cert.TileBodies.product0 (iblk0 V c 0 t) (iblk0 V c 1 t) a b).trans ?_
  obtain ⟨e0, e1, e2, e3, e4, e5⟩ := tile_indices t
  have ht : t.val < 25 := t.isLt
  have ha : a.val < 2000 := a.isLt
  -- the row of the whole array that row `a` of tile `t` is
  let r : Fin 50000 := ⟨t.val * 2000 + a.val, by omega⟩
  have hout : ((cfg0.win 2).blk t).view.emb (ix2 a b) = ix2 r b := funext fun d => Fin.ext (by
    match d with
    | ⟨0, _⟩ => show win0_2.index t (0 : Fin 2) * 2000 + 1 * a.val = t.val * 2000 + a.val; omega
    | ⟨1, _⟩ => show win0_2.index t (1 : Fin 2) * 256 + 1 * b.val = b.val; omega)
  rw [View.read_apply, hout, Cert.LayerSpec.product_apply]
  refine Finset.sum_congr rfl fun k _ => ?_
  have hx : iblk0 V c 0 t (ix2 a k) = V c main_arg0 (ix2 r k) := by
    show V c main_arg0 (((cfg0.win 0).blk t).view.emb (ix2 a k)) = _
    exact congrArg (V c main_arg0) (funext fun d => Fin.ext (by
      match d with
      | ⟨0, _⟩ => show win0_0.index t (0 : Fin 2) * 2000 + 1 * a.val = t.val * 2000 + a.val; omega
      | ⟨1, _⟩ => show win0_0.index t (1 : Fin 2) * 128 + 1 * k.val = k.val; omega))
  have hw : iblk0 V c 1 t (ix2 k b) = V c main_arg2 (ix2 k b) := by
    show V c main_arg2 (((cfg0.win 1).blk t).view.emb (ix2 k b)) = _
    exact congrArg (V c main_arg2) (funext fun d => Fin.ext (by
      match d with
      | ⟨0, _⟩ => show win0_1.index t (0 : Fin 2) * 128 + 1 * k.val = k.val; omega
      | ⟨1, _⟩ => show win0_1.index t (1 : Fin 2) * 256 + 1 * b.val = b.val; omega))
  rw [hx, hw]

/-- An index of the output array lies in tile `t`'s rectangle iff each coordinate is in the tile's range. -/
theorem mem_tile (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every row belongs to a tile: row `r` to tile `r / 2000`. -/
theorem covered (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hq : (i 0).val / 2000 < 25 := by omega
  obtain ⟨-, -, -, -, e4, e5⟩ := tile_indices ⟨(i 0).val / 2000, hq⟩
  refine ⟨⟨(i 0).val / 2000, hq⟩, flush0_2 _, ?_⟩
  rw [mem_tile]
  intro a
  match a with
  | ⟨0, _⟩ =>
    show win0_2.index ⟨(i 0).val / 2000, hq⟩ (0 : Fin 2) * 2000 ≤ (i 0).val ∧ (i 0).val < win0_2.index ⟨(i 0).val / 2000, hq⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hq⟩ (1 : Fin 2) * 256 ≤ (i 1).val ∧ (i 1).val < win0_2.index ⟨(i 0).val / 2000, hq⟩ (1 : Fin 2) * 256 + 256
    rw [e5]; omega

/-- The output array after the region is the whole product of the arrays the region found. -/
theorem whole (c : Dev nD) : (dat0 V c).arrAt 2 cfg0.N = Cert.LayerSpec.product (V c main_arg0) (V c main_arg2) :=
  (dat0 V c).arrAt_eq_of_cover 2 _ (fun t _ => flushed_eq V c t) covered

end Cert.Layer1Product

end
-- ==== Proof.Layer1Bias.lean ====
/-
  The first layer's bias and clip, tile by tile, is the whole layer.

  The aggregated activations `[50000, 256]` are cut into 25 tiles of 2000 rows; the bias, kept as a `[1, 256]` row, is whole
  in every tile. Entry `(2000·t + a, b)` of the layer is `max (x (2000·t + a, b) + β (0, b)) 0`, which needs entry `(a, b)`
  of tile `t` and the bias row only: what tile `t` writes back is the whole layer read through the tile's rectangle, and
  the 25 tiles cover every row.
-/
import proofs.«176214_j15865609191627_1_alg».proof.Proof.Gen.KernelIdeal.Frame
import proofs.«176214_j15865609191627_1_alg».proof.Proof.TileBodies

set_option maxRecDepth 16384

noncomputable section

namespace Cert.Layer1Bias

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Tile `t`'s block indices: the input and the output move down the rows together, the bias row stays. -/
theorem tile_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What tile `t` writes back is the whole layer read through the tile's rectangle. -/
theorem flushed_eq (c : Dev nD) (t : Fin cfg1.N) :
    (dat1 V c).flushed 2 t
      = ((cfg1.win 2).blk t).view.read (Elt Ideal) (Cert.LayerSpec.biasRelu (V c main_v43) (fun q : Fin 256 => V c main_v44 (ix2 0 q))) := by
  show (cfg1.win 2).cut (grid1.coords t) ((dat1 V c).after 2 t) = _
  rw [after1_2]
  unfold out1_2
  rw [View.canon_unit_zero origin]
  simp only [View.ld_unit_zero (S := S2000x256) origin, View.ld_unit_zero (S := S1x256) origin]
  funext j
  obtain ⟨a, b, rfl⟩ : ∃ (a : Fin 2000) (b : Fin 256), j = ix2 a b := ⟨j 0, j 1, eq_ix2 j⟩
  refine (Cert.TileBodies.biasRelu1 (iblk1 V c 0 t) (iblk1 V c 1 t) a b).trans ?_
  obtain ⟨e0, e1, e2, e3, e4, e5⟩ := tile_indices t
  have ht : t.val < 25 := t.isLt
  have ha : a.val < 2000 := a.isLt
  -- the row of the whole array that row `a` of tile `t` is
  let r : Fin 50000 := ⟨t.val * 2000 + a.val, by omega⟩
  have hout : ((cfg1.win 2).blk t).view.emb (ix2 a b) = ix2 r b := funext fun d => Fin.ext (by
    match d with
    | ⟨0, _⟩ => show win1_2.index t (0 : Fin 2) * 2000 + 1 * a.val = t.val * 2000 + a.val; omega
    | ⟨1, _⟩ => show win1_2.index t (1 : Fin 2) * 256 + 1 * b.val = b.val; omega)
  have hx : iblk1 V c 0 t (ix2 a b) = V c main_v43 (ix2 r b) := by
    show V c main_v43 (((cfg1.win 0).blk t).view.emb (ix2 a b)) = _
    exact congrArg (V c main_v43) (funext fun d => Fin.ext (by
      match d with
      | ⟨0, _⟩ => show win1_0.index t (0 : Fin 2) * 2000 + 1 * a.val = t.val * 2000 + a.val; omega
      | ⟨1, _⟩ => show win1_0.index t (1 : Fin 2) * 256 + 1 * b.val = b.val; omega))
  have hβ : iblk1 V c 1 t (ix2 0 b) = V c main_v44 (ix2 0 b) := by
    show V c main_v44 (((cfg1.win 1).blk t).view.emb (ix2 0 b)) = _
    exact congrArg (V c main_v44) (funext fun d => Fin.ext (by
      match d with
      | ⟨0, _⟩ => show win1_1.index t (0 : Fin 2) * 1 + 1 * 0 = 0; omega
      | ⟨1, _⟩ => show win1_1.index t (1 : Fin 2) * 256 + 1 * b.val = b.val; omega))
  rw [View.read_apply, hout, Cert.LayerSpec.biasRelu_apply, hx, hβ]
  rfl

/-- An index of the output array lies in tile `t`'s rectangle iff each coordinate is in the tile's range. -/
theorem mem_tile (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v45).slice (win1_2.rect t)).set ↔ _
  rw [View.set_slice_whole, Rect.mem_set_unit]
  exact Iff.rfl

/-- Every row belongs to a tile: row `r` to tile `r / 2000`. -/
theorem covered (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hq : (i 0).val / 2000 < 25 := by omega
  obtain ⟨-, -, -, -, e4, e5⟩ := tile_indices ⟨(i 0).val / 2000, hq⟩
  refine ⟨⟨(i 0).val / 2000, hq⟩, flush1_2 _, ?_⟩
  rw [mem_tile]
  intro a
  match a with
  | ⟨0, _⟩ =>
    show win1_2.index ⟨(i 0).val / 2000, hq⟩ (0 : Fin 2) * 2000 ≤ (i 0).val ∧ (i 0).val < win1_2.index ⟨(i 0).val / 2000, hq⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hq⟩ (1 : Fin 2) * 256 ≤ (i 1).val ∧ (i 1).val < win1_2.index ⟨(i 0).val / 2000, hq⟩ (1 : Fin 2) * 256 + 256
    rw [e5]; omega

/-- The output array after the region: bias added and clipped, of the arrays the region found. -/
theorem whole (c : Dev nD) :
    (dat1 V c).arrAt 2 cfg1.N = Cert.LayerSpec.biasRelu (V c main_v43) (fun q : Fin 256 => V c main_v44 (ix2 0 q)) :=
  (dat1 V c).arrAt_eq_of_cover 2 _ (fun t _ => flushed_eq V c t) covered

end Cert.Layer1Bias

end
-- ==== Proof.Layer2Product.lean ====
/-
  The second layer's product, tile by tile, is the whole product.

  The hidden activations `[50000, 256]` are cut into 25 tiles of 2000 rows; tile `t` sees its rows of the activations
  and the whole `[256, 256]` weight matrix and writes the same rows of the output. A row of the product needs that row of
  the activations only, so what tile `t` writes back is the whole product read through the tile's rectangle, and the
  25 tiles cover every row.
-/
import proofs.«176214_j15865609191627_1_alg».proof.Proof.Gen.KernelIdeal.Frame
import proofs.«176214_j15865609191627_1_alg».proof.Proof.TileBodies

set_option maxRecDepth 16384

noncomputable section

namespace Cert.Layer2Product

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Tile `t`'s block indices: the input and the output move down the rows together, the weights stay. -/
theorem tile_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What tile `t` writes back is the whole product read through the tile's rectangle. -/
theorem flushed_eq (c : Dev nD) (t : Fin cfg2.N) :
    (dat2 V c).flushed 2 t
      = ((cfg2.win 2).blk t).view.read (Elt Ideal) (Cert.LayerSpec.product (V c main_v45) (V c main_arg4)) := by
  show (cfg2.win 2).cut (grid2.coords t) ((dat2 V c).after 2 t) = _
  rw [after2_2]
  unfold out2_2
  rw [View.canon_unit_zero origin]
  simp only [View.ld_unit_zero (S := S2000x256) origin, View.ld_unit_zero (S := S256x256) origin]
  funext j
  obtain ⟨a, b, rfl⟩ : ∃ (a : Fin 2000) (b : Fin 256), j = ix2 a b := ⟨j 0, j 1, eq_ix2 j⟩
  refine (Cert.TileBodies.product2 (iblk2 V c 0 t) (iblk2 V c 1 t) a b).trans ?_
  obtain ⟨e0, e1, e2, e3, e4, e5⟩ := tile_indices t
  have ht : t.val < 25 := t.isLt
  have ha : a.val < 2000 := a.isLt
  -- the row of the whole array that row `a` of tile `t` is
  let r : Fin 50000 := ⟨t.val * 2000 + a.val, by omega⟩
  have hout : ((cfg2.win 2).blk t).view.emb (ix2 a b) = ix2 r b := funext fun d => Fin.ext (by
    match d with
    | ⟨0, _⟩ => show win2_2.index t (0 : Fin 2) * 2000 + 1 * a.val = t.val * 2000 + a.val; omega
    | ⟨1, _⟩ => show win2_2.index t (1 : Fin 2) * 256 + 1 * b.val = b.val; omega)
  rw [View.read_apply, hout, Cert.LayerSpec.product_apply]
  refine Finset.sum_congr rfl fun k _ => ?_
  have hx : iblk2 V c 0 t (ix2 a k) = V c main_v45 (ix2 r k) := by
    show V c main_v45 (((cfg2.win 0).blk t).view.emb (ix2 a k)) = _
    exact congrArg (V c main_v45) (funext fun d => Fin.ext (by
      match d with
      | ⟨0, _⟩ => show win2_0.index t (0 : Fin 2) * 2000 + 1 * a.val = t.val * 2000 + a.val; omega
      | ⟨1, _⟩ => show win2_0.index t (1 : Fin 2) * 256 + 1 * k.val = k.val; omega))
  have hw : iblk2 V c 1 t (ix2 k b) = V c main_arg4 (ix2 k b) := by
    show V c main_arg4 (((cfg2.win 1).blk t).view.emb (ix2 k b)) = _
    exact congrArg (V c main_arg4) (funext fun d => Fin.ext (by
      match d with
      | ⟨0, _⟩ => show win2_1.index t (0 : Fin 2) * 256 + 1 * k.val = k.val; omega
      | ⟨1, _⟩ => show win2_1.index t (1 : Fin 2) * 256 + 1 * b.val = b.val; omega))
  rw [hx, hw]

/-- An index of the output array lies in tile `t`'s rectangle iff each coordinate is in the tile's range. -/
theorem mem_tile (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v46).slice (win2_2.rect t)).set ↔ _
  rw [View.set_slice_whole, Rect.mem_set_unit]
  exact Iff.rfl

/-- Every row belongs to a tile: row `r` to tile `r / 2000`. -/
theorem covered (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  have hq : (i 0).val / 2000 < 25 := by omega
  obtain ⟨-, -, -, -, e4, e5⟩ := tile_indices ⟨(i 0).val / 2000, hq⟩
  refine ⟨⟨(i 0).val / 2000, hq⟩, flush2_2 _, ?_⟩
  rw [mem_tile]
  intro a
  match a with
  | ⟨0, _⟩ =>
    show win2_2.index ⟨(i 0).val / 2000, hq⟩ (0 : Fin 2) * 2000 ≤ (i 0).val ∧ (i 0).val < win2_2.index ⟨(i 0).val / 2000, hq⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, hq⟩ (1 : Fin 2) * 256 ≤ (i 1).val ∧ (i 1).val < win2_2.index ⟨(i 0).val / 2000, hq⟩ (1 : Fin 2) * 256 + 256
    rw [e5]; omega

/-- The output array after the region is the whole product of the arrays the region found. -/
theorem whole (c : Dev nD) : (dat2 V c).arrAt 2 cfg2.N = Cert.LayerSpec.product (V c main_v45) (V c main_arg4) :=
  (dat2 V c).arrAt_eq_of_cover 2 _ (fun t _ => flushed_eq V c t) covered

end Cert.Layer2Product

end
-- ==== Proof.Layer2Bias.lean ====
/-
  The second layer's bias and clip, tile by tile, is the whole layer.

  As for the first layer: 25 tiles of 2000 rows of the aggregated activations, the bias row whole in every tile;
  entry `(2000·t + a, b)` is `max (x (2000·t + a, b) + β (0, b)) 0`, read off entry `(a, b)` of tile `t`; the tiles cover every row.
-/
import proofs.«176214_j15865609191627_1_alg».proof.Proof.Gen.KernelIdeal.Frame
import proofs.«176214_j15865609191627_1_alg».proof.Proof.TileBodies

set_option maxRecDepth 16384

noncomputable section

namespace Cert.Layer2Bias

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Tile `t`'s block indices: the input and the output move down the rows together, the bias row stays. -/
theorem tile_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What tile `t` writes back is the whole layer read through the tile's rectangle. -/
theorem flushed_eq (c : Dev nD) (t : Fin cfg3.N) :
    (dat3 V c).flushed 2 t
      = ((cfg3.win 2).blk t).view.read (Elt Ideal) (Cert.LayerSpec.biasRelu (V c main_v59) (fun q : Fin 256 => V c main_v60 (ix2 0 q))) := by
  show (cfg3.win 2).cut (grid3.coords t) ((dat3 V c).after 2 t) = _
  rw [after3_2]
  unfold out3_2
  rw [View.canon_unit_zero origin]
  simp only [View.ld_unit_zero (S := S2000x256) origin, View.ld_unit_zero (S := S1x256) origin]
  funext j
  obtain ⟨a, b, rfl⟩ : ∃ (a : Fin 2000) (b : Fin 256), j = ix2 a b := ⟨j 0, j 1, eq_ix2 j⟩
  refine (Cert.TileBodies.biasRelu3 (iblk3 V c 0 t) (iblk3 V c 1 t) a b).trans ?_
  obtain ⟨e0, e1, e2, e3, e4, e5⟩ := tile_indices t
  have ht : t.val < 25 := t.isLt
  have ha : a.val < 2000 := a.isLt
  -- the row of the whole array that row `a` of tile `t` is
  let r : Fin 50000 := ⟨t.val * 2000 + a.val, by omega⟩
  have hout : ((cfg3.win 2).blk t).view.emb (ix2 a b) = ix2 r b := funext fun d => Fin.ext (by
    match d with
    | ⟨0, _⟩ => show win3_2.index t (0 : Fin 2) * 2000 + 1 * a.val = t.val * 2000 + a.val; omega
    | ⟨1, _⟩ => show win3_2.index t (1 : Fin 2) * 256 + 1 * b.val = b.val; omega)
  have hx : iblk3 V c 0 t (ix2 a b) = V c main_v59 (ix2 r b) := by
    show V c main_v59 (((cfg3.win 0).blk t).view.emb (ix2 a b)) = _
    exact congrArg (V c main_v59) (funext fun d => Fin.ext (by
      match d with
      | ⟨0, _⟩ => show win3_0.index t (0 : Fin 2) * 2000 + 1 * a.val = t.val * 2000 + a.val; omega
      | ⟨1, _⟩ => show win3_0.index t (1 : Fin 2) * 256 + 1 * b.val = b.val; omega))
  have hβ : iblk3 V c 1 t (ix2 0 b) = V c main_v60 (ix2 0 b) := by
    show V c main_v60 (((cfg3.win 1).blk t).view.emb (ix2 0 b)) = _
    exact congrArg (V c main_v60) (funext fun d => Fin.ext (by
      match d with
      | ⟨0, _⟩ => show win3_1.index t (0 : Fin 2) * 1 + 1 * 0 = 0; omega
      | ⟨1, _⟩ => show win3_1.index t (1 : Fin 2) * 256 + 1 * b.val = b.val; omega))
  rw [View.read_apply, hout, Cert.LayerSpec.biasRelu_apply, hx, hβ]
  rfl

/-- An index of the output array lies in tile `t`'s rectangle iff each coordinate is in the tile's range. -/
theorem mem_tile (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v61).slice (win3_2.rect t)).set ↔ _
  rw [View.set_slice_whole, Rect.mem_set_unit]
  exact Iff.rfl

/-- Every row belongs to a tile: row `r` to tile `r / 2000`. -/
theorem covered (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  have hq : (i 0).val / 2000 < 25 := by omega
  obtain ⟨-, -, -, -, e4, e5⟩ := tile_indices ⟨(i 0).val / 2000, hq⟩
  refine ⟨⟨(i 0).val / 2000, hq⟩, flush3_2 _, ?_⟩
  rw [mem_tile]
  intro a
  match a with
  | ⟨0, _⟩ =>
    show win3_2.index ⟨(i 0).val / 2000, hq⟩ (0 : Fin 2) * 2000 ≤ (i 0).val ∧ (i 0).val < win3_2.index ⟨(i 0).val / 2000, hq⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, hq⟩ (1 : Fin 2) * 256 ≤ (i 1).val ∧ (i 1).val < win3_2.index ⟨(i 0).val / 2000, hq⟩ (1 : Fin 2) * 256 + 256
    rw [e5]; omega

/-- The output array after the region: bias added and clipped, of the arrays the region found. -/
theorem whole (c : Dev nD) :
    (dat3 V c).arrAt 2 cfg3.N = Cert.LayerSpec.biasRelu (V c main_v59) (fun q : Fin 256 => V c main_v60 (ix2 0 q)) :=
  (dat3 V c).arrAt_eq_of_cover 2 _ (fun t _ => flushed_eq V c t) covered

end Cert.Layer2Bias

end
-- ==== Proof.Layer3Product.lean ====
/-
  The third layer's product, tile by tile, is the whole product.

  The hidden activations `[50000, 256]` are cut into 25 tiles of 2000 rows; tile `t` sees its rows of the activations
  and the whole `[256, 10]` weight matrix and writes the same rows of the `[50000, 10]` output. A row of the product needs
  that row of the activations only, so what tile `t` writes back is the whole product read through the tile's rectangle,
  and the 25 tiles cover every row.
-/
import proofs.«176214_j15865609191627_1_alg».proof.Proof.Gen.KernelIdeal.Frame
import proofs.«176214_j15865609191627_1_alg».proof.Proof.TileBodies

set_option maxRecDepth 16384

noncomputable section

namespace Cert.Layer3Product

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Tile `t`'s block indices: the input and the output move down the rows together, the weights stay. -/
theorem tile_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What tile `t` writes back is the whole product read through the tile's rectangle. -/
theorem flushed_eq (c : Dev nD) (t : Fin cfg4.N) :
    (dat4 V c).flushed 2 t
      = ((cfg4.win 2).blk t).view.read (Elt Ideal) (Cert.LayerSpec.product (V c main_v61) (V c main_arg6)) := by
  show (cfg4.win 2).cut (grid4.coords t) ((dat4 V c).after 2 t) = _
  rw [after4_2]
  unfold out4_2
  rw [View.canon_unit_zero origin]
  simp only [View.ld_unit_zero (S := S2000x256) origin, View.ld_unit_zero (S := S256x10) origin]
  funext j
  obtain ⟨a, b, rfl⟩ : ∃ (a : Fin 2000) (b : Fin 10), j = ix2 a b := ⟨j 0, j 1, eq_ix2 j⟩
  refine (Cert.TileBodies.product4 (iblk4 V c 0 t) (iblk4 V c 1 t) a b).trans ?_
  obtain ⟨e0, e1, e2, e3, e4, e5⟩ := tile_indices t
  have ht : t.val < 25 := t.isLt
  have ha : a.val < 2000 := a.isLt
  -- the row of the whole array that row `a` of tile `t` is
  let r : Fin 50000 := ⟨t.val * 2000 + a.val, by omega⟩
  have hout : ((cfg4.win 2).blk t).view.emb (ix2 a b) = ix2 r b := funext fun d => Fin.ext (by
    match d with
    | ⟨0, _⟩ => show win4_2.index t (0 : Fin 2) * 2000 + 1 * a.val = t.val * 2000 + a.val; omega
    | ⟨1, _⟩ => show win4_2.index t (1 : Fin 2) * 10 + 1 * b.val = b.val; omega)
  rw [View.read_apply, hout, Cert.LayerSpec.product_apply]
  refine Finset.sum_congr rfl fun k _ => ?_
  have hx : iblk4 V c 0 t (ix2 a k) = V c main_v61 (ix2 r k) := by
    show V c main_v61 (((cfg4.win 0).blk t).view.emb (ix2 a k)) = _
    exact congrArg (V c main_v61) (funext fun d => Fin.ext (by
      match d with
      | ⟨0, _⟩ => show win4_0.index t (0 : Fin 2) * 2000 + 1 * a.val = t.val * 2000 + a.val; omega
      | ⟨1, _⟩ => show win4_0.index t (1 : Fin 2) * 256 + 1 * k.val = k.val; omega))
  have hw : iblk4 V c 1 t (ix2 k b) = V c main_arg6 (ix2 k b) := by
    show V c main_arg6 (((cfg4.win 1).blk t).view.emb (ix2 k b)) = _
    exact congrArg (V c main_arg6) (funext fun d => Fin.ext (by
      match d with
      | ⟨0, _⟩ => show win4_1.index t (0 : Fin 2) * 256 + 1 * k.val = k.val; omega
      | ⟨1, _⟩ => show win4_1.index t (1 : Fin 2) * 10 + 1 * b.val = b.val; omega))
  rw [hx, hw]

/-- An index of the output array lies in tile `t`'s rectangle iff each coordinate is in the tile's range. -/
theorem mem_tile (t : Fin cfg4.N) (i : S50000x10.Idx) :
    i ∈ ((cfg4.win 2).blk t).view.set ↔ ∀ a : Fin 2, win4_2.index t a * S2000x10.size a ≤ (i a).val ∧ (i a).val < win4_2.index t a * S2000x10.size a + S2000x10.size a := by
  show i ∈ ((View.whole main_v62).slice (win4_2.rect t)).set ↔ _
  rw [View.set_slice_whole, Rect.mem_set_unit]
  exact Iff.rfl

/-- Every row belongs to a tile: row `r` to tile `r / 2000`. -/
theorem covered (i : S50000x10.Idx) : ∃ t : Fin cfg4.N, (cfg4.win 2).flush t = true ∧ i ∈ ((cfg4.win 2).blk t).view.set := by
  have hi0 : (i 0).val < 50000 := (i 0).isLt
  have hi1 : (i 1).val < 10 := (i 1).isLt
  have hq : (i 0).val / 2000 < 25 := by omega
  obtain ⟨-, -, -, -, e4, e5⟩ := tile_indices ⟨(i 0).val / 2000, hq⟩
  refine ⟨⟨(i 0).val / 2000, hq⟩, flush4_2 _, ?_⟩
  rw [mem_tile]
  intro a
  match a with
  | ⟨0, _⟩ =>
    show win4_2.index ⟨(i 0).val / 2000, hq⟩ (0 : Fin 2) * 2000 ≤ (i 0).val ∧ (i 0).val < win4_2.index ⟨(i 0).val / 2000, hq⟩ (0 : Fin 2) * 2000 + 2000
    rw [e4]; show (i 0).val / 2000 * 2000 ≤ (i 0).val ∧ (i 0).val < (i 0).val / 2000 * 2000 + 2000; omega
  | ⟨1, _⟩ =>
    show win4_2.index ⟨(i 0).val / 2000, hq⟩ (1 : Fin 2) * 10 ≤ (i 1).val ∧ (i 1).val < win4_2.index ⟨(i 0).val / 2000, hq⟩ (1 : Fin 2) * 10 + 10
    rw [e5]; omega

/-- The output array after the region is the whole product of the arrays the region found. -/
theorem whole (c : Dev nD) : (dat4 V c).arrAt 2 cfg4.N = Cert.LayerSpec.product (V c main_v61) (V c main_arg6) :=
  (dat4 V c).arrAt_eq_of_cover 2 _ (fun t _ => flushed_eq V c t) covered

end Cert.Layer3Product

end
-- ==== Proof.Layer3Softmax.lean ====
/-
  The last layer's bias and log-soft-max, tile by tile, is the whole layer.

  The aggregated scores `[50000, 10]` are cut into 25 tiles of 2000 rows; the bias, kept as a `[1, 10]` row, is whole in
  every tile. The log-soft-max of a row needs that row only (its ten biased entries, their maximum, the sum of their
  shifted exponentials), and row `2000·t + a` of the scores is row `a` of tile `t`: so what tile `t` writes back is the
  whole layer read through the tile's rectangle, and the 25 tiles cover every row.
-/
import proofs.«176214_j15865609191627_1_alg».proof.Proof.Gen.KernelIdeal.Frame
import proofs.«176214_j15865609191627_1_alg».proof.Proof.TileBodies

set_option maxRecDepth 16384

noncomputable section

namespace Cert.Layer3Softmax

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Tile `t`'s block indices: the input and the output move down the rows together, the bias row stays. -/
theorem tile_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What tile `t` writes back is the whole layer read through the tile's rectangle. -/
theorem flushed_eq (c : Dev nD) (t : Fin cfg5.N) :
    (dat5 V c).flushed 2 t
      = ((cfg5.win 2).blk t).view.read (Elt Ideal) (Cert.LayerSpec.biasLogSoftmax (V c main_v75) (fun q : Fin 10 => V c main_v76 (ix2 0 q))) := by
  show (cfg5.win 2).cut (grid5.coords t) ((dat5 V c).after 2 t) = _
  rw [after5_2]
  unfold out5_2
  rw [View.canon_unit_zero origin]
  simp only [View.ld_unit_zero (S := S2000x10) origin, View.ld_unit_zero (S := S1x10) origin]
  funext j
  obtain ⟨a, b, rfl⟩ : ∃ (a : Fin 2000) (b : Fin 10), j = ix2 a b := ⟨j 0, j 1, eq_ix2 j⟩
  refine (Cert.TileBodies.biasLogSoftmax5 (iblk5 V c 0 t) (iblk5 V c 1 t) a b).trans ?_
  obtain ⟨e0, e1, e2, e3, e4, e5⟩ := tile_indices t
  have ht : t.val < 25 := t.isLt
  have ha : a.val < 2000 := a.isLt
  -- the row of the whole array that row `a` of tile `t` is
  let r : Fin 50000 := ⟨t.val * 2000 + a.val, by omega⟩
  have hout : ((cfg5.win 2).blk t).view.emb (ix2 a b) = ix2 r b := funext fun d => Fin.ext (by
    match d with
    | ⟨0, _⟩ => show win5_2.index t (0 : Fin 2) * 2000 + 1 * a.val = t.val * 2000 + a.val; omega
    | ⟨1, _⟩ => show win5_2.index t (1 : Fin 2) * 10 + 1 * b.val = b.val; omega)
  have hx : ∀ q : Fin 10, iblk5 V c 0 t (ix2 a q) = V c main_v75 (ix2 r q) := fun q => by
    show V c main_v75 (((cfg5.win 0).blk t).view.emb (ix2 a q)) = _
    exact congrArg (V c main_v75) (funext fun d => Fin.ext (by
      match d with
      | ⟨0, _⟩ => show win5_0.index t (0 : Fin 2) * 2000 + 1 * a.val = t.val * 2000 + a.val; omega
      | ⟨1, _⟩ => show win5_0.index t (1 : Fin 2) * 10 + 1 * q.val = q.val; omega))
  have hβ : ∀ q : Fin 10, iblk5 V c 1 t (ix2 0 q) = V c main_v76 (ix2 0 q) := fun q => by
    show V c main_v76 (((cfg5.win 1).blk t).view.emb (ix2 0 q)) = _
    exact congrArg (V c main_v76) (funext fun d => Fin.ext (by
      match d with
      | ⟨0, _⟩ => show win5_1.index t (0 : Fin 2) * 1 + 1 * 0 = 0; omega
      | ⟨1, _⟩ => show win5_1.index t (1 : Fin 2) * 10 + 1 * q.val = q.val; omega))
  -- the tile's biased row is the array's, so are its maximum and the sum of its shifted exponentials
  have hrow : ∀ q : Fin 10, Cert.TileBodies.biasedRow (iblk5 V c 0 t) (iblk5 V c 1 t) a q
      = Cert.LayerSpec.biased (V c main_v75) (fun q : Fin 10 => V c main_v76 (ix2 0 q)) r q := fun q => by
    unfold Cert.TileBodies.biasedRow Cert.LayerSpec.biased
    rw [hx q, hβ q]
  have hmax : Cert.TileBodies.biasedMax (iblk5 V c 0 t) (iblk5 V c 1 t) a
      = Cert.LayerSpec.rowMax (V c main_v75) (fun q : Fin 10 => V c main_v76 (ix2 0 q)) r := by
    unfold Cert.TileBodies.biasedMax Cert.LayerSpec.rowMax
    exact congrArg (fun f => (Finset.univ : Finset (Fin 10)).fold max (Ideal.ofBits .f32 0xFF800000#32) f) (funext hrow)
  rw [View.read_apply, hout, Cert.LayerSpec.biasLogSoftmax_apply]
  simp only [hrow, hmax]
  rfl

/-- An index of the output array lies in tile `t`'s rectangle iff each coordinate is in the tile's range. -/
theorem mem_tile (t : Fin cfg5.N) (i : S50000x10.Idx) :
    i ∈ ((cfg5.win 2).blk t).view.set ↔ ∀ a : Fin 2, win5_2.index t a * S2000x10.size a ≤ (i a).val ∧ (i a).val < win5_2.index t a * S2000x10.size a + S2000x10.size a := by
  show i ∈ ((View.whole main_v77).slice (win5_2.rect t)).set ↔ _
  rw [View.set_slice_whole, Rect.mem_set_unit]
  exact Iff.rfl

/-- Every row belongs to a tile: row `r` to tile `r / 2000`. -/
theorem covered (i : S50000x10.Idx) : ∃ t : Fin cfg5.N, (cfg5.win 2).flush t = true ∧ i ∈ ((cfg5.win 2).blk t).view.set := by
  have hi0 : (i 0).val < 50000 := (i 0).isLt
  have hi1 : (i 1).val < 10 := (i 1).isLt
  have hq : (i 0).val / 2000 < 25 := by omega
  obtain ⟨-, -, -, -, e4, e5⟩ := tile_indices ⟨(i 0).val / 2000, hq⟩
  refine ⟨⟨(i 0).val / 2000, hq⟩, flush5_2 _, ?_⟩
  rw [mem_tile]
  intro a
  match a with
  | ⟨0, _⟩ =>
    show win5_2.index ⟨(i 0).val / 2000, hq⟩ (0 : Fin 2) * 2000 ≤ (i 0).val ∧ (i 0).val < win5_2.index ⟨(i 0).val / 2000, hq⟩ (0 : Fin 2) * 2000 + 2000
    rw [e4]; show (i 0).val / 2000 * 2000 ≤ (i 0).val ∧ (i 0).val < (i 0).val / 2000 * 2000 + 2000; omega
  | ⟨1, _⟩ =>
    show win5_2.index ⟨(i 0).val / 2000, hq⟩ (1 : Fin 2) * 10 ≤ (i 1).val ∧ (i 1).val < win5_2.index ⟨(i 0).val / 2000, hq⟩ (1 : Fin 2) * 10 + 10
    rw [e5]; omega

/-- The output array after the region: bias added, then the logarithm of each row's soft-max, of the arrays the region found. -/
theorem whole (c : Dev nD) :
    (dat5 V c).arrAt 2 cfg5.N = Cert.LayerSpec.biasLogSoftmax (V c main_v75) (fun q : Fin 10 => V c main_v76 (ix2 0 q)) :=
  (dat5 V c).arrAt_eq_of_cover 2 _ (fun t _ => flushed_eq V c t) covered

end Cert.Layer3Softmax

end
-- ==== Proof.KernelChain.lean ====
/-
  The kernel program's buffers from one segment boundary to the next.

  Twelve segments fold the launch contents `W0` into `W12`. A host stretch rewrites the buffers its operations write and
  no other; a tiled region rewrites its output array and no other buffer. So the arguments keep their launch contents
  up to the segment that reads them, and the graph's index lists and edge weights, once computed (at `W3`), are found
  unchanged by each layer's aggregation. Each region's output array is the layer's whole function of the arrays the
  region found: the product, the bias and clip, the bias and log-soft-max.
-/
import proofs.«176214_j15865609191627_1_alg».proof.Proof.Gen.KernelIdeal.Frame
import proofs.«176214_j15865609191627_1_alg».proof.Proof.Layer1Product
import proofs.«176214_j15865609191627_1_alg».proof.Proof.Layer1Bias
import proofs.«176214_j15865609191627_1_alg».proof.Proof.Layer2Product
import proofs.«176214_j15865609191627_1_alg».proof.Proof.Layer2Bias
import proofs.«176214_j15865609191627_1_alg».proof.Proof.Layer3Product
import proofs.«176214_j15865609191627_1_alg».proof.Proof.Layer3Softmax
import proofs.«176214_j15865609191627_1_alg».proof.Proof.LibAfterAppend
import Idealize.ShloMosaic.Lib.ValueLayout

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- A buffer that no operation of a host stretch writes keeps its contents through the stretch. -/
macro "untouched_by_stretch" : tactic => `(tactic|
  exact StableHlo.after_of_forall_not_mem _ _ (List.forall_iff_forall_mem.mp (by
    simp only [hostOps0, hostOps0_1, hostOps0_2, hostOps1, hostOps3, hostOps5, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-! ## What the segments keep -/

/-- The arguments other than the edge array reach the first region as launched. -/
theorem launched_at_W3 : ∀ a ∈ ([main_arg0, main_arg2, main_arg3, main_arg4, main_arg5, main_arg6, main_arg7] : List (Ref sig .tc)),
    W3 m ρ c (Proc.devRef .tc a) = m ((c : Thread nD τ).loc a) := by
  intro a ha
  simp only [List.mem_cons, List.mem_singleton, List.not_mem_nil, or_false] at ha
  have s2 : W3 m ρ c (Proc.devRef .tc a) = W2 m ρ c (Proc.devRef .tc a) := by
    rcases ha with rfl | rfl | rfl | rfl | rfl | rfl | rfl <;> untouched_by_stretch
  have s1 : W2 m ρ c (Proc.devRef .tc a) = W1 m ρ c (Proc.devRef .tc a) := by
    rcases ha with rfl | rfl | rfl | rfl | rfl | rfl | rfl <;> untouched_by_stretch
  have s0 : W1 m ρ c (Proc.devRef .tc a) = W0 m ρ c (Proc.devRef .tc a) := by
    rcases ha with rfl | rfl | rfl | rfl | rfl | rfl | rfl <;> untouched_by_stretch
  exact s2.trans (s1.trans s0)

/-- The first region, the first aggregation and the first bias region keep the later arguments, the index lists and the edge weights. -/
theorem kept_to_W6 : ∀ b ∈ ([main_arg3, main_arg4, main_arg5, main_arg6, main_arg7, main_v3, main_v6, main_v29] : List (Ref sig .tc)),
    W4 m ρ c (Proc.devRef .tc b) = W3 m ρ c (Proc.devRef .tc b) ∧ W6 m ρ c (Proc.devRef .tc b) = W3 m ρ c (Proc.devRef .tc b) := by
  intro b hb
  simp only [List.mem_cons, List.mem_singleton, List.not_mem_nil, or_false] at hb
  have s3 : W4 m ρ c (Proc.devRef .tc b) = W3 m ρ c (Proc.devRef .tc b) := by
    rcases hb with rfl | rfl | rfl | rfl | rfl | rfl | rfl | rfl <;> exact W4_of_ne m ρ c _ (by decide)
  have s4 : W5 m ρ c (Proc.devRef .tc b) = W4 m ρ c (Proc.devRef .tc b) := by
    rcases hb with rfl | rfl | rfl | rfl | rfl | rfl | rfl | rfl <;> untouched_by_stretch
  have s5 : W6 m ρ c (Proc.devRef .tc b) = W5 m ρ c (Proc.devRef .tc b) := by
    rcases hb with rfl | rfl | rfl | rfl | rfl | rfl | rfl | rfl <;> exact W6_of_ne m ρ c _ (by decide)
  exact ⟨s3, s5.trans (s4.trans s3)⟩

/-- The second product region, the second aggregation and the second bias region keep what the third layer still needs. -/
theorem kept_to_W9 : ∀ b ∈ ([main_arg5, main_arg6, main_arg7, main_v3, main_v6, main_v29] : List (Ref sig .tc)),
    W7 m ρ c (Proc.devRef .tc b) = W3 m ρ c (Proc.devRef .tc b) ∧ W9 m ρ c (Proc.devRef .tc b) = W3 m ρ c (Proc.devRef .tc b) := by
  intro b hb
  have h6 : W6 m ρ c (Proc.devRef .tc b) = W3 m ρ c (Proc.devRef .tc b) :=
    (kept_to_W6 m ρ c b (by
      simp only [List.mem_cons, List.mem_singleton, List.not_mem_nil, or_false] at hb ⊢
      rcases hb with rfl | rfl | rfl | rfl | rfl | rfl <;> simp)).2
  simp only [List.mem_cons, List.mem_singleton, List.not_mem_nil, or_false] at hb
  have s6 : W7 m ρ c (Proc.devRef .tc b) = W6 m ρ c (Proc.devRef .tc b) := by
    rcases hb with rfl | rfl | rfl | rfl | rfl | rfl <;> exact W7_of_ne m ρ c _ (by decide)
  have s7 : W8 m ρ c (Proc.devRef .tc b) = W7 m ρ c (Proc.devRef .tc b) := by
    rcases hb with rfl | rfl | rfl | rfl | rfl | rfl <;> untouched_by_stretch
  have s8 : W9 m ρ c (Proc.devRef .tc b) = W8 m ρ c (Proc.devRef .tc b) := by
    rcases hb with rfl | rfl | rfl | rfl | rfl | rfl <;> exact W9_of_ne m ρ c _ (by decide)
  exact ⟨s6.trans h6, s8.trans (s7.trans (s6.trans h6))⟩

/-- The third product region keeps the last bias, the index lists and the edge weights. -/
theorem kept_to_W10 : ∀ b ∈ ([main_arg7, main_v3, main_v6, main_v29] : List (Ref sig .tc)),
    W10 m ρ c (Proc.devRef .tc b) = W3 m ρ c (Proc.devRef .tc b) := by
  intro b hb
  have h9 : W9 m ρ c (Proc.devRef .tc b) = W3 m ρ c (Proc.devRef .tc b) :=
    (kept_to_W9 m ρ c b (by
      simp only [List.mem_cons, List.mem_singleton, List.not_mem_nil, or_false] at hb ⊢
      rcases hb with rfl | rfl | rfl | rfl <;> simp)).2
  simp only [List.mem_cons, List.mem_singleton, List.not_mem_nil, or_false] at hb
  have s9 : W10 m ρ c (Proc.devRef .tc b) = W9 m ρ c (Proc.devRef .tc b) := by
    rcases hb with rfl | rfl | rfl | rfl <;> exact W10_of_ne m ρ c _ (by decide)
  exact s9.trans h9

/-! ## The first host stretch in two parts, and the bias rows -/

/-- The contents at the first region's entry, with the first stretch cut after the seven operations that build the index lists. -/
theorem W3_in_two_parts : W3 m ρ c
    = StableHlo.after hostOps0_2 (StableHlo.after hostOps0_1 (StableHlo.after ((hostOps0 (F := Ideal)).drop 7)
        (StableHlo.after ((hostOps0 (F := Ideal)).take 7) (W0 m ρ c)))) := by
  show StableHlo.after hostOps0_2 (StableHlo.after hostOps0_1 (StableHlo.after hostOps0 (W0 m ρ c))) = _
  rw [Cert.LibAfterAppend.after_take_drop 7 (hostOps0 (F := Ideal))]

/-- The index lists are written by the first seven operations and by none of the first stretch's other operations. -/
theorem lists_from_first_seven : ∀ b ∈ ([main_v3, main_v6] : List (Ref sig .tc)),
    W3 m ρ c (Proc.devRef .tc b) = StableHlo.after ((hostOps0 (F := Ideal)).take 7) (W0 m ρ c) (Proc.devRef .tc b) := by
  intro b hb
  simp only [List.mem_cons, List.mem_singleton, List.not_mem_nil, or_false] at hb
  rw [W3_in_two_parts]
  have s2 : ∀ W : Valuation τ sig (Elt Ideal), StableHlo.after hostOps0_2 W (Proc.devRef .tc b) = W (Proc.devRef .tc b) := fun W => by
    rcases hb with rfl | rfl <;> untouched_by_stretch
  have s1 : ∀ W : Valuation τ sig (Elt Ideal), StableHlo.after hostOps0_1 W (Proc.devRef .tc b) = W (Proc.devRef .tc b) := fun W => by
    rcases hb with rfl | rfl <;> untouched_by_stretch
  have s0 : ∀ W : Valuation τ sig (Elt Ideal), StableHlo.after ((hostOps0 (F := Ideal)).drop 7) W (Proc.devRef .tc b) = W (Proc.devRef .tc b) := fun W => by
    rcases hb with rfl | rfl <;>
    · refine StableHlo.after_of_forall_not_mem _ _ (List.forall_iff_forall_mem.mp ?_)
      simp only [hostOps0, List.drop_succ_cons, List.drop_zero, List.Forall, StableHlo.nullary_writes, StableHlo.unary_writes,
        StableHlo.binary_writes, StableHlo.ternary_writes, StableHlo.reshape_writes, Finset.mem_singleton]
      repeat' apply And.intro
      all_goals exact StableHlo.devRef_ne_of_ne (by decide)
  rw [s2, s1, s0]

/-- The first bias as the row the first bias region reads: the bias vector recast `[256] → [1, 256]`. -/
theorem bias_row1 (q : Fin 256) :
    W5 m ρ c (Proc.devRef .tc main_v44) (ix2 0 q) = W4 m ρ c (Proc.devRef .tc main_arg3) (ix1 q) := by
  show StableHlo.after hostOps1 (W4 m ρ c) (Proc.devRef .tc main_v44) (ix2 0 q) = _
  simp only [hostOps1]
  after_results
  exact shapeCast_a_1a_apply _ _ 0 q

/-- The second bias as the row the second bias region reads. -/
theorem bias_row2 (q : Fin 256) :
    W8 m ρ c (Proc.devRef .tc main_v60) (ix2 0 q) = W7 m ρ c (Proc.devRef .tc main_arg5) (ix1 q) := by
  show StableHlo.after hostOps3 (W7 m ρ c) (Proc.devRef .tc main_v60) (ix2 0 q) = _
  simp only [hostOps3]
  after_results
  exact shapeCast_a_1a_apply _ _ 0 q

/-- The third bias as the row the log-soft-max region reads. -/
theorem bias_row3 (q : Fin 10) :
    W11 m ρ c (Proc.devRef .tc main_v76) (ix2 0 q) = W10 m ρ c (Proc.devRef .tc main_arg7) (ix1 q) := by
  show StableHlo.after hostOps5 (W10 m ρ c) (Proc.devRef .tc main_v76) (ix2 0 q) = _
  simp only [hostOps5]
  after_results
  exact shapeCast_a_1a_apply _ _ 0 q

/-! ## What the regions leave -/

theorem product1 : W4 m ρ c (Proc.devRef .tc main_v30)
    = Cert.LayerSpec.product (W3 m ρ c (Proc.devRef .tc main_arg0)) (W3 m ρ c (Proc.devRef .tc main_arg2)) :=
  (W4_arr m ρ c 2).trans (Cert.Layer1Product.whole (V3 m ρ) c)

theorem bias1 : W6 m ρ c (Proc.devRef .tc main_v45)
    = Cert.LayerSpec.biasRelu (W5 m ρ c (Proc.devRef .tc main_v43)) (fun q : Fin 256 => W5 m ρ c (Proc.devRef .tc main_v44) (ix2 0 q)) :=
  (W6_arr m ρ c 2).trans (Cert.Layer1Bias.whole (V5 m ρ) c)

theorem product2 : W7 m ρ c (Proc.devRef .tc main_v46)
    = Cert.LayerSpec.product (W6 m ρ c (Proc.devRef .tc main_v45)) (W6 m ρ c (Proc.devRef .tc main_arg4)) :=
  (W7_arr m ρ c 2).trans (Cert.Layer2Product.whole (V6 m ρ) c)

theorem bias2 : W9 m ρ c (Proc.devRef .tc main_v61)
    = Cert.LayerSpec.biasRelu (W8 m ρ c (Proc.devRef .tc main_v59)) (fun q : Fin 256 => W8 m ρ c (Proc.devRef .tc main_v60) (ix2 0 q)) :=
  (W9_arr m ρ c 2).trans (Cert.Layer2Bias.whole (V8 m ρ) c)

theorem product3 : W10 m ρ c (Proc.devRef .tc main_v62)
    = Cert.LayerSpec.product (W9 m ρ c (Proc.devRef .tc main_v61)) (W9 m ρ c (Proc.devRef .tc main_arg6)) :=
  (W10_arr m ρ c 2).trans (Cert.Layer3Product.whole (V9 m ρ) c)

theorem softmax3 : W12 m ρ c (Proc.devRef .tc main_v77)
    = Cert.LayerSpec.biasLogSoftmax (W11 m ρ c (Proc.devRef .tc main_v75)) (fun q : Fin 10 => W11 m ρ c (Proc.devRef .tc main_v76) (ix2 0 q)) :=
  (W12_arr m ρ c 2).trans (Cert.Layer3Softmax.whole (V11 m ρ) c)

end Cert.KernelIdeal.Chain

end
-- ==== Proof.HostAgreement.lean ====
/-
  The host operations the two programs share compute the same values.

  Both programs build the graph's index lists (sources, targets, each with the self loops appended), the in-degrees by a
  scatter-add of ones, the inverse square roots where the degree is positive, and the edge weights as the product of
  the two end points' values; and, once per layer, gather the rows of the layer's product at the edges' sources, scale
  them by the edge weights and scatter-add them at the edges' targets. The operations are the same, in the same order,
  with the same literals; so started from equal inputs the two folds leave equal values. Nothing is opened: each side's
  fold is read back to its inputs and the two terms coincide.
-/
import proofs.«176214_j15865609191627_1_alg».proof.Proof.Gen.KernelIdeal.Launch
import proofs.«176214_j15865609191627_1_alg».proof.Proof.RefProgram
import proofs.«176214_j15865609191627_1_alg».proof.Proof.LibAfterAppend
import Idealize.ShloMosaic.PureOps.Ideal

set_option maxRecDepth 16384

noncomputable section

namespace Cert.HostAgreement

open Idealize.ShloMosaic Idealize.ShloMosaic.TcCoe Idealize.ShloMosaic.StableHlo

/-- Buffer contents of the kernel program's TensorCore, and of the reference program's. -/
abbrev KV := Valuation Cert.KernelIdeal.τ Cert.KernelIdeal.sig (Elt Ideal)
abbrev TV := Valuation Cert.ReferenceIdeal.τ Cert.ReferenceIdeal.sig (Elt Ideal)

/-- The index lists: from equal edge arrays the two programs' first seven operations leave equal source lists and
    equal target lists (each the edge array's row with the self loops appended). -/
theorem lists_agree (Wk : KV) (Wt : TV)
    (h : Wk (Proc.devRef .tc Cert.KernelIdeal.main_arg1) = Wt (Proc.devRef .tc Cert.ReferenceIdeal.main_arg1)) :
    after ((Cert.KernelIdeal.Gen.hostOps0 (F := Ideal)).take 7) Wk (Proc.devRef .tc Cert.KernelIdeal.main_v3)
        = after ((Cert.ReferenceIdeal.Program.ops (F := Ideal)).take 7) Wt (Proc.devRef .tc Cert.ReferenceIdeal.main_v3)
    ∧ after ((Cert.KernelIdeal.Gen.hostOps0 (F := Ideal)).take 7) Wk (Proc.devRef .tc Cert.KernelIdeal.main_v6)
        = after ((Cert.ReferenceIdeal.Program.ops (F := Ideal)).take 7) Wt (Proc.devRef .tc Cert.ReferenceIdeal.main_v6) := by
  simp only [Cert.ReferenceIdeal.Program.ops, Cert.KernelIdeal.Gen.hostOps0, List.take_succ_cons, List.take_zero]
  constructor
  · after_results
    rw [h]
    rfl
  · after_results
    rw [h]
    rfl

set_option maxHeartbeats 4000000 in
/-- The edge weights: from equal index lists the two programs' next thirty-three operations — the in-degrees, their
    inverse square roots where positive, the two gathers at the edges' end points and the product — leave equal weights. -/
theorem weights_agree (Wk : KV) (Wt : TV)
    (h3 : Wk (Proc.devRef .tc Cert.KernelIdeal.main_v3) = Wt (Proc.devRef .tc Cert.ReferenceIdeal.main_v3))
    (h6 : Wk (Proc.devRef .tc Cert.KernelIdeal.main_v6) = Wt (Proc.devRef .tc Cert.ReferenceIdeal.main_v6)) :
    after Cert.KernelIdeal.Gen.hostOps0_2 (after Cert.KernelIdeal.Gen.hostOps0_1 (after ((Cert.KernelIdeal.Gen.hostOps0 (F := Ideal)).drop 7) Wk))
        (Proc.devRef .tc Cert.KernelIdeal.main_v29)
      = after (((Cert.ReferenceIdeal.Program.ops (F := Ideal)).drop 7).take 33) Wt (Proc.devRef .tc Cert.ReferenceIdeal.main_v29) := by
  simp only [Cert.ReferenceIdeal.Program.ops, List.drop_succ_cons, List.drop_zero, List.take_succ_cons, List.take_zero,
    Cert.KernelIdeal.Gen.hostOps0, Cert.KernelIdeal.Gen.hostOps0_1, Cert.KernelIdeal.Gen.hostOps0_2]
  after_results_simp
  rw [h3, h6]
  rfl

set_option maxHeartbeats 4000000 in
/-- The first layer's aggregation: from equal edge weights, index lists and products, the gather at the sources, the scaling and the scatter-add at the targets leave equal arrays. -/
theorem aggregate1_agree (Wk : KV) (Wt : TV)
    (h29 : Wk (Proc.devRef .tc Cert.KernelIdeal.main_v29) = Wt (Proc.devRef .tc Cert.ReferenceIdeal.main_v29))
    (h3 : Wk (Proc.devRef .tc Cert.KernelIdeal.main_v3) = Wt (Proc.devRef .tc Cert.ReferenceIdeal.main_v3))
    (h6 : Wk (Proc.devRef .tc Cert.KernelIdeal.main_v6) = Wt (Proc.devRef .tc Cert.ReferenceIdeal.main_v6))
    (hx : Wk (Proc.devRef .tc Cert.KernelIdeal.main_v30) = Wt (Proc.devRef .tc Cert.ReferenceIdeal.main_v30)) :
    after (Cert.KernelIdeal.Gen.hostOps1 (F := Ideal)) Wk (Proc.devRef .tc Cert.KernelIdeal.main_v43)
      = after (((Cert.ReferenceIdeal.Program.ops (F := Ideal)).drop 41).take 16) Wt (Proc.devRef .tc Cert.ReferenceIdeal.main_v43) := by
  simp only [Cert.ReferenceIdeal.Program.ops, List.drop_succ_cons, List.drop_zero, List.take_succ_cons, List.take_zero,
    Cert.KernelIdeal.Gen.hostOps1]
  after_results_simp
  rw [h29, h3, h6, hx]
  rfl

set_option maxHeartbeats 4000000 in
/-- The second layer's aggregation, likewise. -/
theorem aggregate2_agree (Wk : KV) (Wt : TV)
    (h29 : Wk (Proc.devRef .tc Cert.KernelIdeal.main_v29) = Wt (Proc.devRef .tc Cert.ReferenceIdeal.main_v29))
    (h3 : Wk (Proc.devRef .tc Cert.KernelIdeal.main_v3) = Wt (Proc.devRef .tc Cert.ReferenceIdeal.main_v3))
    (h6 : Wk (Proc.devRef .tc Cert.KernelIdeal.main_v6) = Wt (Proc.devRef .tc Cert.ReferenceIdeal.main_v6))
    (hx : Wk (Proc.devRef .tc Cert.KernelIdeal.main_v46) = Wt (Proc.devRef .tc Cert.ReferenceIdeal.main_v48)) :
    after (Cert.KernelIdeal.Gen.hostOps3 (F := Ideal)) Wk (Proc.devRef .tc Cert.KernelIdeal.main_v59)
      = after (((Cert.ReferenceIdeal.Program.ops (F := Ideal)).drop 64).take 16) Wt (Proc.devRef .tc Cert.ReferenceIdeal.main_v61) := by
  simp only [Cert.ReferenceIdeal.Program.ops, List.drop_succ_cons, List.drop_zero, List.take_succ_cons, List.take_zero,
    Cert.KernelIdeal.Gen.hostOps3]
  after_results_simp
  rw [h29, h3, h6, hx]
  rfl

set_option maxHeartbeats 4000000 in
/-- The third layer's aggregation, likewise, over ten columns. -/
theorem aggregate3_agree (Wk : KV) (Wt : TV)
    (h29 : Wk (Proc.devRef .tc Cert.KernelIdeal.main_v29) = Wt (Proc.devRef .tc Cert.ReferenceIdeal.main_v29))
    (h3 : Wk (Proc.devRef .tc Cert.KernelIdeal.main_v3) = Wt (Proc.devRef .tc Cert.ReferenceIdeal.main_v3))
    (h6 : Wk (Proc.devRef .tc Cert.KernelIdeal.main_v6) = Wt (Proc.devRef .tc Cert.ReferenceIdeal.main_v6))
    (hx : Wk (Proc.devRef .tc Cert.KernelIdeal.main_v62) = Wt (Proc.devRef .tc Cert.ReferenceIdeal.main_v66)) :
    after (Cert.KernelIdeal.Gen.hostOps5 (F := Ideal)) Wk (Proc.devRef .tc Cert.KernelIdeal.main_v75)
      = after (((Cert.ReferenceIdeal.Program.ops (F := Ideal)).drop 87).take 16) Wt (Proc.devRef .tc Cert.ReferenceIdeal.main_v79) := by
  simp only [Cert.ReferenceIdeal.Program.ops, List.drop_succ_cons, List.drop_zero, List.take_succ_cons, List.take_zero,
    Cert.KernelIdeal.Gen.hostOps5]
  after_results_simp
  rw [h29, h3, h6, hx]
  rfl

end Cert.HostAgreement

end
-- ==== Proof.Agreement.lean ====
/-
  The two programs end with the same result.

  The kernel program's boundary contents `W3, W4, …, W12` and the reference program's contents after 40, 41, …, 121 of
  its operations are compared at the buffers that carry the computation forward. From memories that agree on the
  arguments: the index lists and the edge weights agree (the same host operations on the same edge array); then, layer by
  layer, the product (a tiled region against one `dot_general`: both `LayerSpec.product` of the same arrays), the
  aggregation (the same host operations on equal operands), and the bias with its clip or its log-soft-max (a tiled
  region against the host's own operations: both the `LayerSpec` layer of the same arrays) agree; so the kernel's result
  buffer at `W12` is the reference's result buffer after all of its operations.
-/
import proofs.«176214_j15865609191627_1_alg».proof.Proof.KernelChain
import proofs.«176214_j15865609191627_1_alg».proof.Proof.HostAgreement
import proofs.«176214_j15865609191627_1_alg».proof.Proof.RefRun

set_option maxRecDepth 16384

noncomputable section

namespace Cert.Agreement

open Idealize.ShloMosaic Idealize.ShloMosaic.TcCoe Idealize.ShloMosaic.ValueIdx Idealize.ShloMosaic.StableHlo Idealize.SL.Sem
open Cert.KernelIdeal.Gen Cert.KernelIdeal.Chain Cert.ReferenceIdeal.Stretches Cert.HostAgreement

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The reference program's launch contents on the core. -/
abbrev T0 : TV := launchContents m' c

/-- The two memories agree on the arguments, on the core. -/
structure SameArguments : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-! Short names for the buffers compared: `k_…` the kernel program's, `t_…` the reference program's. -/
local notation "k_v3" => (Proc.devRef Proc.tc Cert.KernelIdeal.main_v3 : DevRef Cert.KernelIdeal.τ Cert.KernelIdeal.sig)
local notation "k_v6" => (Proc.devRef Proc.tc Cert.KernelIdeal.main_v6 : DevRef Cert.KernelIdeal.τ Cert.KernelIdeal.sig)
local notation "k_v29" => (Proc.devRef Proc.tc Cert.KernelIdeal.main_v29 : DevRef Cert.KernelIdeal.τ Cert.KernelIdeal.sig)
local notation "k_arg0" => (Proc.devRef Proc.tc Cert.KernelIdeal.main_arg0 : DevRef Cert.KernelIdeal.τ Cert.KernelIdeal.sig)
local notation "k_arg1" => (Proc.devRef Proc.tc Cert.KernelIdeal.main_arg1 : DevRef Cert.KernelIdeal.τ Cert.KernelIdeal.sig)
local notation "k_arg2" => (Proc.devRef Proc.tc Cert.KernelIdeal.main_arg2 : DevRef Cert.KernelIdeal.τ Cert.KernelIdeal.sig)
local notation "k_arg3" => (Proc.devRef Proc.tc Cert.KernelIdeal.main_arg3 : DevRef Cert.KernelIdeal.τ Cert.KernelIdeal.sig)
local notation "k_arg4" => (Proc.devRef Proc.tc Cert.KernelIdeal.main_arg4 : DevRef Cert.KernelIdeal.τ Cert.KernelIdeal.sig)
local notation "k_arg5" => (Proc.devRef Proc.tc Cert.KernelIdeal.main_arg5 : DevRef Cert.KernelIdeal.τ Cert.KernelIdeal.sig)
local notation "k_arg6" => (Proc.devRef Proc.tc Cert.KernelIdeal.main_arg6 : DevRef Cert.KernelIdeal.τ Cert.KernelIdeal.sig)
local notation "k_arg7" => (Proc.devRef Proc.tc Cert.KernelIdeal.main_arg7 : DevRef Cert.KernelIdeal.τ Cert.KernelIdeal.sig)
local notation "k_v30" => (Proc.devRef Proc.tc Cert.KernelIdeal.main_v30 : DevRef Cert.KernelIdeal.τ Cert.KernelIdeal.sig)
local notation "k_v43" => (Proc.devRef Proc.tc Cert.KernelIdeal.main_v43 : DevRef Cert.KernelIdeal.τ Cert.KernelIdeal.sig)
local notation "k_v44" => (Proc.devRef Proc.tc Cert.KernelIdeal.main_v44 : DevRef Cert.KernelIdeal.τ Cert.KernelIdeal.sig)
local notation "k_v45" => (Proc.devRef Proc.tc Cert.KernelIdeal.main_v45 : DevRef Cert.KernelIdeal.τ Cert.KernelIdeal.sig)
local notation "k_v46" => (Proc.devRef Proc.tc Cert.KernelIdeal.main_v46 : DevRef Cert.KernelIdeal.τ Cert.KernelIdeal.sig)
local notation "k_v59" => (Proc.devRef Proc.tc Cert.KernelIdeal.main_v59 : DevRef Cert.KernelIdeal.τ Cert.KernelIdeal.sig)
local notation "k_v60" => (Proc.devRef Proc.tc Cert.KernelIdeal.main_v60 : DevRef Cert.KernelIdeal.τ Cert.KernelIdeal.sig)
local notation "k_v61" => (Proc.devRef Proc.tc Cert.KernelIdeal.main_v61 : DevRef Cert.KernelIdeal.τ Cert.KernelIdeal.sig)
local notation "k_v62" => (Proc.devRef Proc.tc Cert.KernelIdeal.main_v62 : DevRef Cert.KernelIdeal.τ Cert.KernelIdeal.sig)
local notation "k_v75" => (Proc.devRef Proc.tc Cert.KernelIdeal.main_v75 : DevRef Cert.KernelIdeal.τ Cert.KernelIdeal.sig)
local notation "k_v76" => (Proc.devRef Proc.tc Cert.KernelIdeal.main_v76 : DevRef Cert.KernelIdeal.τ Cert.KernelIdeal.sig)
local notation "k_v77" => (Proc.devRef Proc.tc Cert.KernelIdeal.main_v77 : DevRef Cert.KernelIdeal.τ Cert.KernelIdeal.sig)
local notation "t_v3" => (Proc.devRef Proc.tc Cert.ReferenceIdeal.main_v3 : DevRef Cert.ReferenceIdeal.τ Cert.ReferenceIdeal.sig)
local notation "t_v6" => (Proc.devRef Proc.tc Cert.ReferenceIdeal.main_v6 : DevRef Cert.ReferenceIdeal.τ Cert.ReferenceIdeal.sig)
local notation "t_v29" => (Proc.devRef Proc.tc Cert.ReferenceIdeal.main_v29 : DevRef Cert.ReferenceIdeal.τ Cert.ReferenceIdeal.sig)
local notation "t_arg0" => (Proc.devRef Proc.tc Cert.ReferenceIdeal.main_arg0 : DevRef Cert.ReferenceIdeal.τ Cert.ReferenceIdeal.sig)
local notation "t_arg1" => (Proc.devRef Proc.tc Cert.ReferenceIdeal.main_arg1 : DevRef Cert.ReferenceIdeal.τ Cert.ReferenceIdeal.sig)
local notation "t_arg2" => (Proc.devRef Proc.tc Cert.ReferenceIdeal.main_arg2 : DevRef Cert.ReferenceIdeal.τ Cert.ReferenceIdeal.sig)
local notation "t_arg3" => (Proc.devRef Proc.tc Cert.ReferenceIdeal.main_arg3 : DevRef Cert.ReferenceIdeal.τ Cert.ReferenceIdeal.sig)
local notation "t_arg4" => (Proc.devRef Proc.tc Cert.ReferenceIdeal.main_arg4 : DevRef Cert.ReferenceIdeal.τ Cert.ReferenceIdeal.sig)
local notation "t_arg5" => (Proc.devRef Proc.tc Cert.ReferenceIdeal.main_arg5 : DevRef Cert.ReferenceIdeal.τ Cert.ReferenceIdeal.sig)
local notation "t_arg6" => (Proc.devRef Proc.tc Cert.ReferenceIdeal.main_arg6 : DevRef Cert.ReferenceIdeal.τ Cert.ReferenceIdeal.sig)
local notation "t_arg7" => (Proc.devRef Proc.tc Cert.ReferenceIdeal.main_arg7 : DevRef Cert.ReferenceIdeal.τ Cert.ReferenceIdeal.sig)
local notation "t_v30" => (Proc.devRef Proc.tc Cert.ReferenceIdeal.main_v30 : DevRef Cert.ReferenceIdeal.τ Cert.ReferenceIdeal.sig)
local notation "t_v43" => (Proc.devRef Proc.tc Cert.ReferenceIdeal.main_v43 : DevRef Cert.ReferenceIdeal.τ Cert.ReferenceIdeal.sig)
local notation "t_v47" => (Proc.devRef Proc.tc Cert.ReferenceIdeal.main_v47 : DevRef Cert.ReferenceIdeal.τ Cert.ReferenceIdeal.sig)
local notation "t_v48" => (Proc.devRef Proc.tc Cert.ReferenceIdeal.main_v48 : DevRef Cert.ReferenceIdeal.τ Cert.ReferenceIdeal.sig)
local notation "t_v61" => (Proc.devRef Proc.tc Cert.ReferenceIdeal.main_v61 : DevRef Cert.ReferenceIdeal.τ Cert.ReferenceIdeal.sig)
local notation "t_v65" => (Proc.devRef Proc.tc Cert.ReferenceIdeal.main_v65 : DevRef Cert.ReferenceIdeal.τ Cert.ReferenceIdeal.sig)
local notation "t_v66" => (Proc.devRef Proc.tc Cert.ReferenceIdeal.main_v66 : DevRef Cert.ReferenceIdeal.τ Cert.ReferenceIdeal.sig)
local notation "t_v79" => (Proc.devRef Proc.tc Cert.ReferenceIdeal.main_v79 : DevRef Cert.ReferenceIdeal.τ Cert.ReferenceIdeal.sig)
local notation "t_v83" => (Proc.devRef Proc.tc Cert.ReferenceIdeal.main_v83 : DevRef Cert.ReferenceIdeal.τ Cert.ReferenceIdeal.sig)

local notation "Tops" => (Cert.ReferenceIdeal.Program.ops (F := Ideal))

/-! ## The graph: index lists and edge weights -/

/-- After the first seven operations of each program the index lists agree. -/
theorem lists7 (h : SameArguments m m' c) :
    after ((hostOps0 (F := Ideal)).take 7) (W0 m ρ c) k_v3 = upTo 7 (T0 m' c) t_v3
    ∧ after ((hostOps0 (F := Ideal)).take 7) (W0 m ρ c) k_v6 = upTo 7 (T0 m' c) t_v6 :=
  lists_agree (W0 m ρ c) (T0 m' c) h.a1.symm

/-- At the first region's entry, against the reference after forty operations: the index lists and the edge weights agree. -/
theorem graph40 (h : SameArguments m m' c) :
    W3 m ρ c k_v3 = upTo 40 (T0 m' c) t_v3 ∧ W3 m ρ c k_v6 = upTo 40 (T0 m' c) t_v6 ∧ W3 m ρ c k_v29 = upTo 40 (T0 m' c) t_v29 := by
  obtain ⟨l3, l6⟩ := lists7 m ρ m' c h
  have e40 : upTo 40 (T0 m' c) = after ((List.drop 7 Tops).take 33) (upTo 7 (T0 m' c)) := upTo_add 7 33 (T0 m' c)
  refine ⟨?_, ?_, ?_⟩
  · rw [lists_from_first_seven m ρ c Cert.KernelIdeal.main_v3 (by decide), l3, e40, lists_kept 33 _ Cert.ReferenceIdeal.main_v3 (by decide)]
  · rw [lists_from_first_seven m ρ c Cert.KernelIdeal.main_v6 (by decide), l6, e40, lists_kept 33 _ Cert.ReferenceIdeal.main_v6 (by decide)]
  · rw [W3_in_two_parts, e40]
    exact weights_agree _ _ l3 l6

/-! ## The first layer -/

/-- After the first product region, against the reference after 41 operations: the products agree, and so do the index
    lists and edge weights still. -/
theorem layer1_product (h : SameArguments m m' c) :
    W4 m ρ c k_v30 = upTo 41 (T0 m' c) t_v30 ∧ W4 m ρ c k_v3 = upTo 41 (T0 m' c) t_v3
    ∧ W4 m ρ c k_v6 = upTo 41 (T0 m' c) t_v6 ∧ W4 m ρ c k_v29 = upTo 41 (T0 m' c) t_v29 := by
  obtain ⟨g3, g6, g29⟩ := graph40 m ρ m' c h
  have e41 : upTo 41 (T0 m' c) = after ((List.drop 40 Tops).take 1) (upTo 40 (T0 m' c)) := upTo_add 40 1 (T0 m' c)
  refine ⟨?_, ?_, ?_, ?_⟩
  · rw [Cert.KernelIdeal.Chain.product1]
    rw [launched_at_W3 m ρ c Cert.KernelIdeal.main_arg0 (by decide), launched_at_W3 m ρ c Cert.KernelIdeal.main_arg2 (by decide)]
    rw [e41, Cert.ReferenceIdeal.Stretches.product1]
    rw [arg_kept 40 _ Cert.ReferenceIdeal.main_arg0 (by decide), arg_kept 40 _ Cert.ReferenceIdeal.main_arg2 (by decide)]
    rw [← h.a0, ← h.a2]
  · rw [(kept_to_W6 m ρ c Cert.KernelIdeal.main_v3 (by decide)).1, g3, e41, graph_kept 1 _ Cert.ReferenceIdeal.main_v3 (by decide)]
  · rw [(kept_to_W6 m ρ c Cert.KernelIdeal.main_v6 (by decide)).1, g6, e41, graph_kept 1 _ Cert.ReferenceIdeal.main_v6 (by decide)]
  · rw [(kept_to_W6 m ρ c Cert.KernelIdeal.main_v29 (by decide)).1, g29, e41, graph_kept 1 _ Cert.ReferenceIdeal.main_v29 (by decide)]

/-- After the first bias region, against the reference after 63 operations: the first layer's activations agree. -/
theorem layer1 (h : SameArguments m m' c) : W6 m ρ c k_v45 = upTo 63 (T0 m' c) t_v47 := by
  obtain ⟨p, g3, g6, g29⟩ := layer1_product m ρ m' c h
  have e57 : upTo 57 (T0 m' c) = after ((List.drop 41 Tops).take 16) (upTo 41 (T0 m' c)) := upTo_add 41 16 (T0 m' c)
  have e63 : upTo 63 (T0 m' c) = after ((List.drop 57 Tops).take 6) (upTo 57 (T0 m' c)) := upTo_add 57 6 (T0 m' c)
  -- the aggregated products
  have agg : W5 m ρ c k_v43 = upTo 57 (T0 m' c) t_v43 := by
    rw [e57]
    exact aggregate1_agree (W4 m ρ c) (upTo 41 (T0 m' c)) g29 g3 g6 p
  -- the bias row
  have row : (fun q : Fin 256 => W5 m ρ c k_v44 (ix2 0 q)) = fun q : Fin 256 => upTo 57 (T0 m' c) t_arg3 (ix1 q) := by
    funext q
    rw [bias_row1, (kept_to_W6 m ρ c Cert.KernelIdeal.main_arg3 (by decide)).1, launched_at_W3 m ρ c Cert.KernelIdeal.main_arg3 (by decide),
      arg_kept 57 _ Cert.ReferenceIdeal.main_arg3 (by decide), ← h.a3]
  rw [Cert.KernelIdeal.Chain.bias1, e63, Cert.ReferenceIdeal.Stretches.bias1, agg, row]

/-! ## The second layer -/

/-- After the second product region, against the reference after 64 operations. -/
theorem layer2_product (h : SameArguments m m' c) :
    W7 m ρ c k_v46 = upTo 64 (T0 m' c) t_v48 ∧ W7 m ρ c k_v3 = upTo 64 (T0 m' c) t_v3
    ∧ W7 m ρ c k_v6 = upTo 64 (T0 m' c) t_v6 ∧ W7 m ρ c k_v29 = upTo 64 (T0 m' c) t_v29 := by
  obtain ⟨g3, g6, g29⟩ := graph40 m ρ m' c h
  have l1 := layer1 m ρ m' c h
  have e64 : upTo 64 (T0 m' c) = after ((List.drop 63 Tops).take 1) (upTo 63 (T0 m' c)) := upTo_add 63 1 (T0 m' c)
  have e64' : upTo 64 (T0 m' c) = after ((List.drop 40 Tops).take 24) (upTo 40 (T0 m' c)) := upTo_add 40 24 (T0 m' c)
  refine ⟨?_, ?_, ?_, ?_⟩
  · rw [Cert.KernelIdeal.Chain.product2, l1]
    rw [(kept_to_W6 m ρ c Cert.KernelIdeal.main_arg4 (by decide)).2, launched_at_W3 m ρ c Cert.KernelIdeal.main_arg4 (by decide)]
    rw [e64, Cert.ReferenceIdeal.Stretches.product2]
    rw [arg_kept 63 _ Cert.ReferenceIdeal.main_arg4 (by decide)]
    rw [← h.a4]
  · rw [(kept_to_W9 m ρ c Cert.KernelIdeal.main_v3 (by decide)).1, g3, e64', graph_kept 24 _ Cert.ReferenceIdeal.main_v3 (by decide)]
  · rw [(kept_to_W9 m ρ c Cert.KernelIdeal.main_v6 (by decide)).1, g6, e64', graph_kept 24 _ Cert.ReferenceIdeal.main_v6 (by decide)]
  · rw [(kept_to_W9 m ρ c Cert.KernelIdeal.main_v29 (by decide)).1, g29, e64', graph_kept 24 _ Cert.ReferenceIdeal.main_v29 (by decide)]

/-- After the second bias region, against the reference after 86 operations: the second layer's activations agree. -/
theorem layer2 (h : SameArguments m m' c) : W9 m ρ c k_v61 = upTo 86 (T0 m' c) t_v65 := by
  obtain ⟨p, g3, g6, g29⟩ := layer2_product m ρ m' c h
  have e80 : upTo 80 (T0 m' c) = after ((List.drop 64 Tops).take 16) (upTo 64 (T0 m' c)) := upTo_add 64 16 (T0 m' c)
  have e86 : upTo 86 (T0 m' c) = after ((List.drop 80 Tops).take 6) (upTo 80 (T0 m' c)) := upTo_add 80 6 (T0 m' c)
  have agg : W8 m ρ c k_v59 = upTo 80 (T0 m' c) t_v61 := by
    rw [e80]
    exact aggregate2_agree (W7 m ρ c) (upTo 64 (T0 m' c)) g29 g3 g6 p
  have row : (fun q : Fin 256 => W8 m ρ c k_v60 (ix2 0 q)) = fun q : Fin 256 => upTo 80 (T0 m' c) t_arg5 (ix1 q) := by
    funext q
    rw [bias_row2, (kept_to_W9 m ρ c Cert.KernelIdeal.main_arg5 (by decide)).1, launched_at_W3 m ρ c Cert.KernelIdeal.main_arg5 (by decide),
      arg_kept 80 _ Cert.ReferenceIdeal.main_arg5 (by decide), ← h.a5]
  rw [Cert.KernelIdeal.Chain.bias2, e86, Cert.ReferenceIdeal.Stretches.bias2, agg, row]

/-! ## The third layer -/

/-- After the third product region, against the reference after 87 operations. -/
theorem layer3_product (h : SameArguments m m' c) :
    W10 m ρ c k_v62 = upTo 87 (T0 m' c) t_v66 ∧ W10 m ρ c k_v3 = upTo 87 (T0 m' c) t_v3
    ∧ W10 m ρ c k_v6 = upTo 87 (T0 m' c) t_v6 ∧ W10 m ρ c k_v29 = upTo 87 (T0 m' c) t_v29 := by
  obtain ⟨g3, g6, g29⟩ := graph40 m ρ m' c h
  have l2 := layer2 m ρ m' c h
  have e87 : upTo 87 (T0 m' c) = after ((List.drop 86 Tops).take 1) (upTo 86 (T0 m' c)) := upTo_add 86 1 (T0 m' c)
  have e87' : upTo 87 (T0 m' c) = after ((List.drop 40 Tops).take 47) (upTo 40 (T0 m' c)) := upTo_add 40 47 (T0 m' c)
  refine ⟨?_, ?_, ?_, ?_⟩
  · rw [Cert.KernelIdeal.Chain.product3, l2]
    rw [(kept_to_W9 m ρ c Cert.KernelIdeal.main_arg6 (by decide)).2, launched_at_W3 m ρ c Cert.KernelIdeal.main_arg6 (by decide)]
    rw [e87, Cert.ReferenceIdeal.Stretches.product3]
    rw [arg_kept 86 _ Cert.ReferenceIdeal.main_arg6 (by decide)]
    rw [← h.a6]
  · rw [kept_to_W10 m ρ c Cert.KernelIdeal.main_v3 (by decide), g3, e87', graph_kept 47 _ Cert.ReferenceIdeal.main_v3 (by decide)]
  · rw [kept_to_W10 m ρ c Cert.KernelIdeal.main_v6 (by decide), g6, e87', graph_kept 47 _ Cert.ReferenceIdeal.main_v6 (by decide)]
  · rw [kept_to_W10 m ρ c Cert.KernelIdeal.main_v29 (by decide), g29, e87', graph_kept 47 _ Cert.ReferenceIdeal.main_v29 (by decide)]

/-- THE RESULT: the kernel program's result buffer at its last boundary is the reference program's result buffer after
    all of its operations. -/
theorem result (h : SameArguments m m' c) : W12 m ρ c k_v77 = after Tops (T0 m' c) t_v83 := by
  obtain ⟨p, g3, g6, g29⟩ := layer3_product m ρ m' c h
  have e103 : upTo 103 (T0 m' c) = after ((List.drop 87 Tops).take 16) (upTo 87 (T0 m' c)) := upTo_add 87 16 (T0 m' c)
  have eall : after Tops (T0 m' c) = after (List.drop 103 Tops) (upTo 103 (T0 m' c)) := Cert.LibAfterAppend.after_take_drop 103 _ (T0 m' c)
  have agg : W11 m ρ c k_v75 = upTo 103 (T0 m' c) t_v79 := by
    rw [e103]
    exact aggregate3_agree (W10 m ρ c) (upTo 87 (T0 m' c)) g29 g3 g6 p
  have row : (fun q : Fin 10 => W11 m ρ c k_v76 (ix2 0 q)) = fun q : Fin 10 => upTo 103 (T0 m' c) t_arg7 (ix1 q) := by
    funext q
    rw [bias_row3, kept_to_W10 m ρ c Cert.KernelIdeal.main_arg7 (by decide), launched_at_W3 m ρ c Cert.KernelIdeal.main_arg7 (by decide),
      arg_kept 103 _ Cert.ReferenceIdeal.main_arg7 (by decide), ← h.a7]
  rw [Cert.KernelIdeal.Chain.softmax3, eall, Cert.ReferenceIdeal.Stretches.softmax3, agg, row]

end Cert.Agreement

end
-- ==== Proof.lean ====
/-
  A three-layer graph-convolution network, tiled on the device against its plain array-language reference.

  Both programs compute, from node features `x`, an edge list and three weight matrices with biases: the symmetric
  normalisation `ν_e = d(src e)^(-1/2) · d(dst e)^(-1/2)` of the graph with self loops (degrees by a scatter-add, the
  inverse square root where the degree is positive), and three times `h ↦ Σ_{e : dst e = ·} ν_e · (h · W)(src e) + b`,
  clipped at zero after the first two layers and passed through a row-wise log-soft-max after the third. The device
  program runs the three products, the two bias-and-clip steps and the bias-and-log-soft-max as tiled kernels — 25 tiles
  of 2000 rows each — and leaves the gathers and scatter-adds to the host; the reference runs everything on the host.

  Every layer acts row by row, so a tile of rows of a layer is the layer of that tile of rows: each tiled region's
  output array is the layer's whole function of its input arrays (`LayerSpec`, the `Layer…` modules). The host operations
  the programs share are the same operations on equal operands (`HostAgreement`). Walking the two programs side by side
  (`Agreement`) the result buffers coincide on the extended reals; no step needs the inputs to be finite. The frames are
  the generated ones for the two device programs and the straight-line run for the reference; the idealization rewrote
  no operation, so there is nothing to preserve.
-/
import proofs.«176214_j15865609191627_1_alg».proof.Defs
import proofs.«176214_j15865609191627_1_alg».proof.Proof.Gen.Kernel
import proofs.«176214_j15865609191627_1_alg».proof.Proof.Gen.Kernel.Frame
import proofs.«176214_j15865609191627_1_alg».proof.Proof.Gen.KernelIdeal
import proofs.«176214_j15865609191627_1_alg».proof.Proof.Gen.KernelIdeal.Frame
import proofs.«176214_j15865609191627_1_alg».proof.Proof.Gen.ReferenceIdeal
import proofs.«176214_j15865609191627_1_alg».proof.Proof.Gen.Pre_finite_inputs
import proofs.«176214_j15865609191627_1_alg».proof.Proof.KernelRun
import proofs.«176214_j15865609191627_1_alg».proof.Proof.RefResult
import proofs.«176214_j15865609191627_1_alg».proof.Proof.Agreement
import Idealize.ShloMosaic.Adequacy
import Idealize.ShloMosaic.Init

noncomputable section

namespace Cert.Proof

open Idealize.ShloMosaic Idealize.SL.Sem

/-- The device program as printed runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- The idealized device program runs and keeps its arguments. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its straight-line run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Result.result_at_fold m ρ)

/-- From memories that agree on the arguments both idealized programs run, keep their arguments and end with the same
    result: the device program's last boundary contents at its result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W12 m ρ c (Proc.devRef .tc Cert.KernelIdeal.main_v77),
    Cert.KernelIdeal.Run.result_at_last_boundary m ρ, ?_⟩
  refine (θ_run Cert.ReferenceIdeal.defs _ _).mono (fun _ h c => ⟨(h c).1.trans ?_, (h c).2⟩)
    (Cert.ReferenceIdeal.Result.result_at_fold m' ρ')
  obtain ⟨a0, a1, a2, a3, a4, a5, a6, a7⟩ := hagree c
  exact (Cert.Agreement.result m ρ m' c ⟨a0, a1, a2, a3, a4, a5, a6, a7⟩).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
